-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S100000 : Shape := ⟨1, ![100000]⟩
abbrev S4096 : Shape := ⟨1, ![4096]⟩
abbrev S9x128 : Shape := ⟨2, ![9, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x128 : S_.BroadcastsInDim S9x128 (![] : Fin 0 → Fin S9x128.rank)
  reducesTo_S9x128_S_d0_1 : S9x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S32x1 .f32) (main_arg16 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg15
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg11 : FVec F S128x128 .f32) (main_arg12 : FVec F S128 .f32) (main_arg13 : FVec F S128x32 .f32) (main_arg14 : FVec F S32 .f32) (main_arg15 : FVec F S32x1 .f32) (main_arg16 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg13
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg14
  let main_cst_18 : FVec F S_ .f32 := constant S_ .f32 0x7F800000#32
  let main_v50 : FVec F S32 .f32 := broadcastInDim S32 ![] bcast_S_S32 main_cst_18
  fn_part3 (F := F) main_arg15 main_arg16 main_v48 main_v49 main_v50

def fn_part1 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x32 .f32) (main_arg14 : FVec F S32 .f32) (main_arg15 : FVec F S32x1 .f32) (main_arg16 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S100000x9 .f32) (main_arg1 : IVec S2x1600000 32) (main_arg2 : IVec S100000 32) (main_arg3 : IVec S4096 32) (main_arg4 : IVec S4096 32) (main_arg5 : FVec F S9x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x32 .f32) (main_arg14 : FVec F S32 .f32) (main_arg15 : FVec F S32x1 .f32) (main_arg16 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x128 .f32 := Host.absf main_arg5
  let main_cst_0 : FVec F S_ .f32 := constant S_ .f32 0x7F800000#32
  let main_v5 : FVec F S9x128 .f32 := broadcastInDim S9x128 ![] bcast_S_S9x128 main_cst_0
  let main_v6 : IVec S9x128 1 := cmpf .olt main_v4 main_v5
  let main_c_1 : IVec S_ 1 := constantI S_ 1 1#1
  let main_v7 : IVec S_ 1 := (fun x v => Host.reduce IntOp.andi x v reducesTo_S9x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_arg13 main_arg14 main_arg15 main_arg16 main_v13 main_v16
-- ==== Kernel.lean ====
abbrev S100000x9 : Shape := ⟨2, ![100000, 9]⟩
abbrev S2x1600000 : Shape := ⟨2, ![2, 1600000]⟩
abbrev S100000 : Shape := ⟨1, ![100000]⟩
abbrev S4096 : Shape := ⟨1, ![4096]⟩
abbrev S9x128 : Shape := ⟨2, ![9, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S4000x9 : Shape := ⟨2, ![4000, 9]⟩
abbrev S4000x128 : Shape := ⟨2, ![4000, 128]⟩
abbrev S1600000x128 : Shape := ⟨2, ![1600000, 128]⟩
abbrev S4000x1 : Shape := ⟨2, ![4000, 1]⟩
abbrev S1x128 : Shape := ⟨2, ![1, 128]⟩
abbrev S4000x32 : Shape := ⟨2, ![4000, 32]⟩
abbrev S1x32 : Shape := ⟨2, ![1, 32]⟩
abbrev S1x1 : Shape := ⟨2, ![1, 1]⟩
abbrev S2000 : Shape := ⟨1, ![2000]⟩
abbrev S2000x1 : Shape := ⟨2, ![2000, 1]⟩
abbrev S4096x1 : Shape := ⟨2, ![4096, 1]⟩

abbrev nBuf : Space → Nat
  | .hbm => 145
  | .vmem => 40
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S4096, .i32⟩
  | 4 => ⟨S4096, .i32⟩
  | 5 => ⟨S9x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x32, .f32⟩
  | 14 => ⟨S32, .f32⟩
  | 15 => ⟨S32x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S100000, .f32⟩
  | 52 => ⟨S100000x1, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S_, .f32⟩
  | 103 => ⟨S100000, .f32⟩
  | 104 => ⟨S_, .f32⟩
  | 105 => ⟨S2000, .f32⟩
  | 106 => ⟨S100000x1, .i32⟩
  | 107 => ⟨S2000, .f32⟩
  | 108 => ⟨S_, .f32⟩
  | 109 => ⟨S2000x1, .f32⟩
  | 110 => ⟨S100000x1, .i32⟩
  | 111 => ⟨S2000x1, .f32⟩
  | 112 => ⟨S_, .f32⟩
  | 113 => ⟨S2000, .f32⟩
  | 114 => ⟨S2000, .f32⟩
  | 115 => ⟨S2000x1, .f32⟩
  | 116 => ⟨S2000x1, .f32⟩
  | 117 => ⟨S2000, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S4096, .f32⟩
  | 127 => ⟨S_, .i32⟩
  | _ => ⟨S100000x9, .f32⟩

abbrev hbmTy0_1 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S4096, .f32⟩
  | 8 => ⟨S4096, .f32⟩
  | 9 => ⟨S4096, .f32⟩
  | 10 => ⟨S4096, .f32⟩
  | 11 => ⟨S_, .f32⟩
  | 12 => ⟨S4096, .f32⟩
  | 13 => ⟨S4096, .f32⟩
  | 14 => ⟨S_, .f32⟩
  | 15 => ⟨S4096, .f32⟩
  | 16 => ⟨S4096, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | .local _ .vmem, ⟨0, _⟩ => ⟨S4000x9, .f32⟩
  | .local _ .vmem, ⟨1, _⟩ => ⟨S4000x9, .f32⟩
  | .local _ .vmem, ⟨2, _⟩ => ⟨S9x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S128x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S128, .f32⟩
  | .local _ .vmem, ⟨22, _⟩ => ⟨S128x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x1, .f32⟩
  | .local _ .vmem, ⟨30, _⟩ => ⟨S4000x1, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x32, .f32⟩
  | .local _ .vmem, ⟨35, _⟩ => ⟨S32, .f32⟩
  | .local _ .vmem, ⟨36, _⟩ => ⟨S32x1, .f32⟩
  | .local _ .vmem, ⟨37, _⟩ => ⟨S1, .f32⟩
  | .local _ .vmem, ⟨38, _⟩ => ⟨S4000x1, .f32⟩
  | .local _ .vmem, ⟨39, _⟩ => ⟨S4000x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_c_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_c_21 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_cst_23 : Ref sig .tc := ⟨.hbm, 142, rfl⟩
abbrev main_v100 : Ref sig .tc := ⟨.hbm, 143, rfl⟩
abbrev main_v101 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg10_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem10_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S32x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x9_S4000x9_0_0 : ∀ a, (![0, 0] : Fin 2 → Nat) a + S4000x9.size a ≤ S4000x9.size a
  h_S4000x9 : 0 < S4000x9.numel
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  bcast_S_S2000 : S_.BroadcastsInDim S2000 (![] : Fin 0 → Fin S2000.rank)
  bcast_S_S2000x1 : S_.BroadcastsInDim S2000x1 (![] : Fin 0 → Fin S2000x1.rank)
  bcast_S2000_S2000x1_0 : S2000.BroadcastsInDim S2000x1 (![0] : Fin 1 → Fin S2000x1.rank)
  shapeCasts_S2000x1_S2000 : S2000x1.ShapeCasts S2000
  bcast_S_S4096 : S_.BroadcastsInDim S4096 (![] : Fin 0 → Fin S4096.rank)
  bcast_S4096_S4096x1_0 : S4096.BroadcastsInDim S4096x1 (![0] : Fin 1 → Fin S4096x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x9_S9x128_S4000x128_1_0_0_1_n_n_wf : DotDims.WF S4000x9 S9x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x32_S4000x32_1_0_0_1_n_n_wf : DotDims.WF S4000x128 S128x32 S4000x32 [1] [0] [0] [1] [] []
  dot_S4000x32_S32x1_S4000x1_1_0_0_1_n_n_wf : DotDims.WF S4000x32 S32x1 S4000x1 [1] [0] [0] [1] [] []
  scatter_S2000_S100000x1_S100000_n_0_0_1_wf : ScatterDims.WF S2000 S100000x1 S100000 [] [0] [0] 1
  scatter_S2000x1_S100000x1_S100000x1_1_0_0_1_wf : ScatterDims.WF S2000x1 S100000x1 S100000x1 [1] [0] [0] 1
  gather_S2000_S4096x1_S4096_n_0_n_n_0_1_1_wf : GatherDims.WF S2000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x9.size a ≤ S100000x9.size a
  hwx0_0 : ∀ i : grid0.Coords, EltTy.bits .f32 = 32 ∨ (Rect.block (s := S100000x9) S4000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x32.size a ≤ S128x32.size a
  hwx3_6 : ∀ i : grid3.Coords, EltTy.bits .f32 = 32 ∨ (Rect.block (s := S128x32) S128x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32.size a ≤ S32.size a
  hwx3_7 : ∀ i : grid3.Coords, EltTy.bits .f32 = 32 ∨ (Rect.block (s := S32) S32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S32x1.size a ≤ S32x1.size a
  hwx3_8 : ∀ i : grid3.Coords, EltTy.bits .f32 = 32 ∨ (Rect.block (s := S32x1) S32x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1.size a ≤ S1.size a
  hwx3_9 : ∀ i : grid3.Coords, EltTy.bits .f32 = 32 ∨ (Rect.block (s := S1) S1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x1.size a ≤ S100000x1.size a
  hwx3_10 : ∀ i : grid3.Coords, EltTy.bits .f32 = 32 ∨ (Rect.block (s := S100000x1) S4000x1.size (cc3_transform_10 i) (hinb3_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x9_S9x128_S4000x128_1_0_0_1_n_n : DotDims S4000x9 S9x128 S4000x128 where
  lhsContracting := [1]
  rhsContracting := [0]
  lhsNonContracting := [0]
  rhsNonContracting := [1]
  lhsBatch := []
  rhsBatch := []
  wf := dot_S4000x9_S9x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def gather_S2000_S4096x1_S4096_n_0_n_n_0_1_1 : GatherDims S2000 S4096x1 S4096 where
  offsetDims := []
  collapsedSliceDims := [0]
  operandBatchingDims := []
  startIndicesBatchingDims := []
  startIndexMap := [0]
  indexVectorDim := 1
  sliceSizes := ![1]
  wf := gather_S2000_S4096x1_S4096_n_0_n_n_0_1_1_wf

abbrev win0_0 : Pipeline.Window sig grid0 :=
  Pipeline.Window.ofSpec (Memref.whole main_arg0) S4000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg15) S32x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg16) S1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v68) S4000x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S100000 : Shape := ⟨1, ![100000]⟩
abbrev S4096 : Shape := ⟨1, ![4096]⟩
abbrev S9x128 : Shape := ⟨2, ![9, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S100000x32 : Shape := ⟨2, ![100000, 32]⟩
abbrev S1x32 : Shape := ⟨2, ![1, 32]⟩
abbrev S1x1 : Shape := ⟨2, ![1, 1]⟩
abbrev S2000 : Shape := ⟨1, ![2000]⟩
abbrev S2000x1 : Shape := ⟨2, ![2000, 1]⟩
abbrev S4096x1 : Shape := ⟨2, ![4096, 1]⟩

abbrev nBuf : Space → Nat
  | .hbm => 179
  | .vmem => 0
  | .smem => 0
  | _ => 0

abbrev hbmTy0_0 (i : Nat) : BufTy := match i % 128 with
  | 0 => ⟨S100000x9, .f32⟩
  | 1 => ⟨S2x1600000, .i32⟩
  | 2 => ⟨S100000, .i32⟩
  | 3 => ⟨S4096, .i32⟩
  | 4 => ⟨S4096, .i32⟩
  | 5 => ⟨S9x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x32, .f32⟩
  | 14 => ⟨S32, .f32⟩
  | 15 => ⟨S32x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S100000, .f32⟩
  | 52 => ⟨S100000x1, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S100000x32, .f32⟩
  | _ => ⟨S100000x9, .f32⟩

abbrev hbmTy0_1 (i : Nat) : BufTy := match i % 128 with
  | 0 => ⟨S1x32, .f32⟩
  | 1 => ⟨S100000x32, .f32⟩
  | 2 => ⟨S100000x32, .f32⟩
  | 3 => ⟨S100000x32, .f32⟩
  | 4 => ⟨S100000x1, .f32⟩
  | 5 => ⟨S1x1, .f32⟩
  | 6 => ⟨S100000x1, .f32⟩
  | 7 => ⟨S100000x1, .f32⟩
  | 8 => ⟨S_, .f32⟩
  | 9 => ⟨S100000, .f32⟩
  | 10 => ⟨S_, .f32⟩
  | 11 => ⟨S2000, .f32⟩
  | 12 => ⟨S100000x1, .i32⟩
  | 13 => ⟨S2000, .f32⟩
  | 14 => ⟨S_, .f32⟩
  | 15 => ⟨S2000x1, .f32⟩
  | 16 => ⟨S100000x1, .i32⟩
  | 17 => ⟨S2000x1, .f32⟩
  | 18 => ⟨S_, .f32⟩
  | 19 => ⟨S2000, .f32⟩
  | 20 => ⟨S2000, .f32⟩
  | 21 => ⟨S2000x1, .f32⟩
  | 22 => ⟨S2000x1, .f32⟩
  | 23 => ⟨S2000, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .f32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096, .f32⟩
  | 42 => ⟨S4096, .f32⟩
  | 43 => ⟨S4096, .f32⟩
  | 44 => ⟨S4096, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_14 : Ref sig .tc := ⟨.hbm, 136, rfl⟩
abbrev main_v103 : Ref sig .tc := ⟨.hbm, 137, rfl⟩
abbrev main_cst_15 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_17 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_18 : Ref sig .tc := ⟨.hbm, 152, rfl⟩
abbrev main_v115 : Ref sig .tc := ⟨.hbm, 153, rfl⟩
abbrev main_v116 : Ref sig .tc := ⟨.hbm, 154, rfl⟩
abbrev main_c_19 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_20 : Ref sig .tc := ⟨.hbm, 161, rfl⟩
abbrev main_v122 : Ref sig .tc := ⟨.hbm, 162, rfl⟩
abbrev main_v123 : Ref sig .tc := ⟨.hbm, 163, rfl⟩
abbrev main_c_21 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_22 : Ref sig .tc := ⟨.hbm, 173, rfl⟩
abbrev main_v132 : Ref sig .tc := ⟨.hbm, 174, rfl⟩
abbrev main_v133 : Ref sig .tc := ⟨.hbm, 175, rfl⟩
abbrev main_cst_23 : Ref sig .tc := ⟨.hbm, 176, rfl⟩
abbrev main_v134 : Ref sig .tc := ⟨.hbm, 177, rfl⟩
abbrev main_v135 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S2000 : S_.BroadcastsInDim S2000 (![] : Fin 0 → Fin S2000.rank)
  bcast_S_S2000x1 : S_.BroadcastsInDim S2000x1 (![] : Fin 0 → Fin S2000x1.rank)
  bcast_S2000_S2000x1_0 : S2000.BroadcastsInDim S2000x1 (![0] : Fin 1 → Fin S2000x1.rank)
  shapeCasts_S2000x1_S2000 : S2000x1.ShapeCasts S2000
  bcast_S_S4096 : S_.BroadcastsInDim S4096 (![] : Fin 0 → Fin S4096.rank)
  bcast_S4096_S4096x1_0 : S4096.BroadcastsInDim S4096x1 (![0] : Fin 1 → Fin S4096x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x9_S9x128_S100000x128_1_0_0_1_n_n_wf : DotDims.WF S100000x9 S9x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []
  scatter_S2000_S100000x1_S100000_n_0_0_1_wf : ScatterDims.WF S2000 S100000x1 S100000 [] [0] [0] 1
  scatter_S2000x1_S100000x1_S100000x1_1_0_0_1_wf : ScatterDims.WF S2000x1 S100000x1 S100000x1 [1] [0] [0] 1
  gather_S2000_S4096x1_S4096_n_0_n_n_0_1_1_wf : GatherDims.WF S2000 S4096x1 S4096 [] [0] [] [0] [] 1 ![1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x9_S9x128_S100000x128_1_0_0_1_n_n : DotDims S100000x9 S9x128 S100000x128 where
  lhsContracting := [1]
  rhsContracting := [0]
  lhsNonContracting := [0]
  rhsNonContracting := [1]
  lhsBatch := []
  rhsBatch := []
  wf := dot_S100000x9_S9x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def gather_S2000_S4096x1_S4096_n_0_n_n_0_1_1 : GatherDims S2000 S4096x1 S4096 where
  offsetDims := []
  collapsedSliceDims := [0]
  operandBatchingDims := []
  startIndicesBatchingDims := []
  startIndexMap := [0]
  indexVectorDim := 1
  sliceSizes := ![1]
  wf := gather_S2000_S4096x1_S4096_n_0_n_n_0_1_1_wf

class Facts : Prop extends Facts₀ where

variable [Facts]
-- ==== Proof.KRun.lean ====
/-
  The idealized kernel program's run with its buffers named.

  The program is nine segments: five stretches of host operations and, between them, four tiled regions. After the
  last segment every buffer that is not scoped to a region holds what the fold through the segments leaves there:
  a host stretch applies its operations to the contents it is entered with, a region replaces its output array by
  what its grid points wrote back and keeps everything else. Here that fold is read at EVERY unscoped buffer of the
  final state (the results among them), where the frame claim only reads it at the arguments.
-/
import proofs.«143599_j26044681683633_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state each unscoped
    buffer `b` of each core holds the last boundary's contents at `b`. -/
theorem run_named : θ_run defs (onTc (τ := τ) (main (F := F))) ⟨m, fun _ => 0, ρ⟩ (fun r => ∀ c : Dev nD,
      ∀ (b : Ref sig .tc), ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.Named

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«143599_j26044681683633_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«143599_j26044681683633_1_alg».proof.Proof.LibPlainDotFormats
import proofs.«143599_j26044681683633_1_alg».proof.Proof.LibKeepdims
import proofs.«143599_j26044681683633_1_alg».proof.Proof.LibJoinedRows
import proofs.«143599_j26044681683633_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.LibGraphConvRows.lean ====
/-
  The arithmetic of the graph network, entry by entry, and why it may be computed on any block of rows.

  One graph-convolution step turns an aggregate `a`, the layer's own features `h`, a one-column array of self-loop
  weights `s` and a bias vector `b` into the activation  tanh(a + h·s + b)  (`act`): entry (p, q) reads row p of
  `a`, `h`, `s` and entry q of `b`.  The next layer's features are the matrix product of that activation with the next
  weight matrix (`layer`); the last step is followed by two dense layers with tanh (`dense`) and one without
  (`affine`), giving one number per node (`head`).

  Every one of these is ROW-LOCAL: row p of the result depends on row p of the row-indexed operands only (the weight
  matrices and bias vectors are read whole).  So selecting rows (`rows e`) commutes with each of them — which is all
  that a kernel working on 4000-row blocks needs in order to agree with the same formulas applied to whole arrays.
  Nothing here needs an entry to be finite.
-/
import Idealize.ShloMosaic.PureOps.Ideal.Laws
import Idealize.ShloMosaic.Lib.ValueIdx
import proofs.«143599_j26044681683633_1_alg».proof.Proof.LibTileOps

noncomputable section

namespace Cert.GcnSpec

open Idealize.ShloMosaic Idealize.ShloMosaic.ValueIdx Cert.LibTileOps
open scoped BigOperators

variable {A A' K B : ℕ}

/-- The activation of one graph-convolution step, tanh(a + h·s + b), entry by entry. -/
def act (a h : FVec Ideal ⟨2, ![A, B]⟩ .f32) (s : FVec Ideal ⟨2, ![A, 1]⟩ .f32) (b : FVec Ideal ⟨1, ![B]⟩ .f32) :
    FVec Ideal ⟨2, ![A, B]⟩ .f32 :=
  fun i => Ideal.tanh (a i + h i * s (ix2 (i 0) (0 : Fin 1)) + b (ix1 (i 1)))

/-- A dense layer with tanh: tanh(x·w + b), entry by entry. -/
def dense (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => Ideal.tanh (matProd x w i + b (ix1 (i 1)))

/-- A dense layer without activation: x·w + b. -/
def affine (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => matProd x w i + b (ix1 (i 1))

/-- One step's activation times the next weight matrix: the next layer's features. -/
def layer (a h : FVec Ideal ⟨2, ![A, K]⟩ .f32) (s : FVec Ideal ⟨2, ![A, 1]⟩ .f32) (b : FVec Ideal ⟨1, ![K]⟩ .f32)
    (w : FVec Ideal ⟨2, ![K, B]⟩ .f32) : FVec Ideal ⟨2, ![A, B]⟩ .f32 :=
  matProd (act a h s b) w

/-- The last step's activation through the three-layer head. -/
def head {K1 K2 K3 : ℕ} (a h : FVec Ideal ⟨2, ![A, K]⟩ .f32) (s : FVec Ideal ⟨2, ![A, 1]⟩ .f32) (b : FVec Ideal ⟨1, ![K]⟩ .f32)
    (w1 : FVec Ideal ⟨2, ![K, K1]⟩ .f32) (b1 : FVec Ideal ⟨1, ![K1]⟩ .f32)
    (w2 : FVec Ideal ⟨2, ![K1, K2]⟩ .f32) (b2 : FVec Ideal ⟨1, ![K2]⟩ .f32)
    (w3 : FVec Ideal ⟨2, ![K2, K3]⟩ .f32) (b3 : FVec Ideal ⟨1, ![K3]⟩ .f32) : FVec Ideal ⟨2, ![A, K3]⟩ .f32 :=
  affine (dense (dense (act a h s b) w1 b1) w2 b2) w3 b3

/-- The rows of an array that `e` selects. -/
def rows (e : Fin A' → Fin A) (x : FVec Ideal ⟨2, ![A, B]⟩ .f32) : FVec Ideal ⟨2, ![A', B]⟩ .f32 :=
  fun i => x (ix2 (e (i 0)) (i 1))

theorem rows_apply (e : Fin A' → Fin A) (x : FVec Ideal ⟨2, ![A, B]⟩ .f32) (p : Fin A') (q : Fin B) :
    rows e x (ix2 p q) = x (ix2 (e p) q) := rfl

/-! ## Selecting rows commutes with each operation -/

theorem matProd_rows (e : Fin A' → Fin A) (x : FVec Ideal ⟨2, ![A, K]⟩ .f32) (w : FVec Ideal ⟨2, ![K, B]⟩ .f32) :
    matProd (rows e x) w = rows e (matProd x w) := by
  funext i
  obtain ⟨p, c, rfl⟩ : ∃ (p : Fin A') (c : Fin B), i = ix2 p c := ⟨i 0, i 1, eq_ix2 i⟩
  rfl

theorem act_rows (e : Fin A' → Fin A) (a h : FVec Ideal ⟨2, ![A, B]⟩ .f32) (s : FVec Ideal ⟨2, ![A, 1]⟩ .f32)
    (b : FVec Ideal ⟨1, ![B]⟩ .f32) : act (rows e a) (rows e h) (rows e s) b = rows e (act a h s b) := by
  funext i
  obtain ⟨p, c, rfl⟩ : ∃ (p : Fin A') (c : Fin B), i = ix2 p c := ⟨i 0, i 1, eq_ix2 i⟩
  rfl

theorem dense_rows (e : Fin A' → Fin A) (x : FVec Ideal ⟨2, ![A, K]⟩ .f32) (w : FVec Ideal ⟨2, ![K, B]⟩ .f32)
    (b : FVec Ideal ⟨1, ![B]⟩ .f32) : dense (rows e x) w b = rows e (dense x w b) := by
  funext i
  obtain ⟨p, c, rfl⟩ : ∃ (p : Fin A') (c : Fin B), i = ix2 p c := ⟨i 0, i 1, eq_ix2 i⟩
  rfl

theorem affine_rows (e : Fin A' → Fin A) (x : FVec Ideal ⟨2, ![A, K]⟩ .f32) (w : FVec Ideal ⟨2, ![K, B]⟩ .f32)
    (b : FVec Ideal ⟨1, ![B]⟩ .f32) : affine (rows e x) w b = rows e (affine x w b) := by
  funext i
  obtain ⟨p, c, rfl⟩ : ∃ (p : Fin A') (c : Fin B), i = ix2 p c := ⟨i 0, i 1, eq_ix2 i⟩
  rfl

theorem layer_rows (e : Fin A' → Fin A) (a h : FVec Ideal ⟨2, ![A, K]⟩ .f32) (s : FVec Ideal ⟨2, ![A, 1]⟩ .f32)
    (b : FVec Ideal ⟨1, ![K]⟩ .f32) (w : FVec Ideal ⟨2, ![K, B]⟩ .f32) :
    layer (rows e a) (rows e h) (rows e s) b w = rows e (layer a h s b w) := by
  unfold layer
  rw [act_rows, matProd_rows]

theorem head_rows {K1 K2 K3 : ℕ} (e : Fin A' → Fin A) (a h : FVec Ideal ⟨2, ![A, K]⟩ .f32) (s : FVec Ideal ⟨2, ![A, 1]⟩ .f32)
    (b : FVec Ideal ⟨1, ![K]⟩ .f32)
    (w1 : FVec Ideal ⟨2, ![K, K1]⟩ .f32) (b1 : FVec Ideal ⟨1, ![K1]⟩ .f32)
    (w2 : FVec Ideal ⟨2, ![K1, K2]⟩ .f32) (b2 : FVec Ideal ⟨1, ![K2]⟩ .f32)
    (w3 : FVec Ideal ⟨2, ![K2, K3]⟩ .f32) (b3 : FVec Ideal ⟨1, ![K3]⟩ .f32) :
    head (rows e a) (rows e h) (rows e s) b w1 b1 w2 b2 w3 b3 = rows e (head a h s b w1 b1 w2 b2 w3 b3) := by
  unfold head
  rw [act_rows, dense_rows, dense_rows, affine_rows]

end Cert.GcnSpec

end
-- ==== Proof.KPay.lean ====
/-
  The arithmetic of the four kernel bodies, entry by entry, on a block of 4000 rows.

  Each body reads whole blocks and computes one array from them.  The first body is a matrix product of a [4000, 9]
  block with a [9, 128] weight matrix.  The second and third compute the activation tanh(a + h·s + b) of one
  graph-convolution step (s a one-column array read at the entry's row, b a bias vector read at the entry's column)
  and multiply it by the next weight matrix.  The fourth computes the same activation and sends it through two dense
  layers with tanh and one without.

  Three observations carry every equation.  A cast of a shape to itself is the identity; a one-column array broadcast
  along the rows reads its entry of the same row, and a vector cast to one row and broadcast down the columns reads
  its entry of the same column; and over the extended reals a change of float format is the identity, so a matrix
  product of two narrowed operands into the zero accumulator is the sum over k of x(p, k) · w(k, c) of the operands as
  they were.  Nothing here needs an entry to be finite.
-/
import proofs.«143599_j26044681683633_1_alg».proof.Proof.Gen.KernelIdeal.Skeleton
import proofs.«143599_j26044681683633_1_alg».proof.Proof.LibGraphConvRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.LibTileOps Cert.GcnSpec
open scoped BigOperators

/-! ## One column broadcast along the rows -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The pieces the bodies are made of -/

section Pieces
variable {A K B : ℕ}

/-- The activation of one step as the bodies spell it: a + h · (s along the rows) + (b down the columns), then tanh,
    the casts of a shape to itself being the identity. -/
theorem prefix_eq_act
    (hcc : (⟨2, ![A, B]⟩ : Shape).ShapeCasts ⟨2, ![A, B]⟩) (hc1 : (⟨2, ![A, 1]⟩ : Shape).ShapeCasts ⟨2, ![A, 1]⟩)
    (hbc : (⟨2, ![A, 1]⟩ : Shape).Broadcasts ⟨2, ![A, B]⟩)
    (hcr : (⟨1, ![B]⟩ : Shape).ShapeCasts ⟨2, ![1, B]⟩) (hbr : (⟨2, ![1, B]⟩ : Shape).Broadcasts ⟨2, ![A, B]⟩)
    (a h : FVec Ideal ⟨2, ![A, B]⟩ .f32) (s : FVec Ideal ⟨2, ![A, 1]⟩ .f32) (b : FVec Ideal ⟨1, ![B]⟩ .f32) :
    tanh (addf (addf (shapeCast ⟨2, ![A, B]⟩ a hcc)
          (mulf (shapeCast ⟨2, ![A, B]⟩ h hcc) (broadcastTo ⟨2, ![A, B]⟩ (shapeCast ⟨2, ![A, 1]⟩ s hc1) hbc)))
        (broadcastTo ⟨2, ![A, B]⟩ (shapeCast ⟨2, ![1, B]⟩ b hcr) hbr))
      = act a h s b := by
  funext i
  obtain ⟨p, q, rfl⟩ : ∃ (p : Fin A) (q : Fin B), i = ix2 p q := ⟨i 0, i 1, eq_ix2 i⟩
  rw [shapeCast_self, shapeCast_self, shapeCast_self]
  show Ideal.tanh (a (ix2 p q) + h (ix2 p q) * broadcastTo ⟨2, ![A, B]⟩ s hbc (ix2 p q)
      + broadcastTo ⟨2, ![A, B]⟩ (shapeCast ⟨2, ![1, B]⟩ b hcr) hbr (ix2 p q)) = _
  rw [broadcastTo_a1_ab_apply, broadcastTo_1b_ab_apply, shapeCast_a_1a_apply]
  rfl

/-- A plain matrix product of two operands narrowed to bf16, into the zero accumulator, is the matrix product of the
    operands as they were: a change of format is the identity on extended reals. -/
theorem matmul_truncf_eq_matProd {D : DotDims ⟨2, ![A, K]⟩ ⟨2, ![K, B]⟩ ⟨2, ![A, B]⟩} (hD : Cert.LibPlainDot.Plain D)
    (ht : FTy.bits .bf16 < FTy.bits .f32)
    (x : FVec Ideal ⟨2, ![A, K]⟩ .f32) (w : FVec Ideal ⟨2, ![K, B]⟩ .f32) :
    FloatOps.matmul D none (truncf .bf16 x ht) (truncf .bf16 w ht) (constant ⟨2, ![A, B]⟩ .f32 0x00000000#32)
      = matProd x w := by
  funext i
  obtain ⟨p, c, rfl⟩ : ∃ (p : Fin A) (c : Fin B), i = ix2 p c := ⟨i 0, i 1, eq_ix2 i⟩
  exact hD.matmul_zero_apply_formats none (truncf .bf16 x ht) (truncf .bf16 w ht) p c

/-- The same product plus a bias vector cast to one row and broadcast down the columns: a dense layer without
    activation. -/
theorem matmul_truncf_bias_eq_affine {D : DotDims ⟨2, ![A, K]⟩ ⟨2, ![K, B]⟩ ⟨2, ![A, B]⟩} (hD : Cert.LibPlainDot.Plain D)
    (ht : FTy.bits .bf16 < FTy.bits .f32)
    (hcr : (⟨1, ![B]⟩ : Shape).ShapeCasts ⟨2, ![1, B]⟩) (hbr : (⟨2, ![1, B]⟩ : Shape).Broadcasts ⟨2, ![A, B]⟩)
    (x : FVec Ideal ⟨2, ![A, K]⟩ .f32) (w : FVec Ideal ⟨2, ![K, B]⟩ .f32) (b : FVec Ideal ⟨1, ![B]⟩ .f32) :
    addf (FloatOps.matmul D none (truncf .bf16 x ht) (truncf .bf16 w ht) (constant ⟨2, ![A, B]⟩ .f32 0x00000000#32))
        (broadcastTo ⟨2, ![A, B]⟩ (shapeCast ⟨2, ![1, B]⟩ b hcr) hbr)
      = affine x w b := by
  rw [matmul_truncf_eq_matProd hD ht x w]
  funext i
  obtain ⟨p, c, rfl⟩ : ∃ (p : Fin A) (c : Fin B), i = ix2 p c := ⟨i 0, i 1, eq_ix2 i⟩
  rw [addf_apply, broadcastTo_1b_ab_apply, shapeCast_a_1a_apply]
  rfl

/-- tanh of a dense layer without activation is the dense layer with it. -/
theorem tanh_affine_eq_dense (x : FVec Ideal ⟨2, ![A, K]⟩ .f32) (w : FVec Ideal ⟨2, ![K, B]⟩ .f32)
    (b : FVec Ideal ⟨1, ![B]⟩ .f32) : tanh (affine x w b) = dense x w b := rfl

end Pieces

/-! ## The four bodies -/

/-- The first body: the matrix product of its block with the weight matrix. -/
theorem pay0 (x0 : Vec Ideal S4000x9 .f32) (x2 : Vec Ideal S9x128 .f32) : k0_pay1 (F := Ideal) x0 x2 = matProd x0 x2 := by
  unfold k0_pay1
  exact matmul_truncf_eq_matProd ⟨rfl, rfl, rfl, rfl, rfl, rfl⟩ _ x0 x2

/-- The second body: one step's activation times the next weight matrix. -/
theorem pay1 (v0 v2 : Vec Ideal S4000x128 .f32) (v4 : Vec Ideal S4000x1 .f32) (v9 : Vec Ideal S128 .f32)
    (v15 : Vec Ideal S128x128 .f32) : k1_pay1 (F := Ideal) v0 v2 v4 v9 v15 = layer v0 v2 v4 v9 v15 := by
  unfold k1_pay1 layer
  dsimp only
  rw [prefix_eq_act]
  exact matmul_truncf_eq_matProd ⟨rfl, rfl, rfl, rfl, rfl, rfl⟩ _ _ v15

/-- The third body: the same, on the next step's operands. -/
theorem pay2 (v0 v2 : Vec Ideal S4000x128 .f32) (v4 : Vec Ideal S4000x1 .f32) (v9 : Vec Ideal S128 .f32)
    (v15 : Vec Ideal S128x128 .f32) : k2_pay1 (F := Ideal) v0 v2 v4 v9 v15 = layer v0 v2 v4 v9 v15 := by
  unfold k2_pay1 layer
  dsimp only
  rw [prefix_eq_act]
  exact matmul_truncf_eq_matProd ⟨rfl, rfl, rfl, rfl, rfl, rfl⟩ _ _ v15

/-- The fourth body: the last step's activation through two dense layers with tanh and one without. -/
theorem pay3 (v0 v2 : Vec Ideal S4000x128 .f32) (v4 : Vec Ideal S4000x1 .f32) (v9 : Vec Ideal S128 .f32)
    (v15 : Vec Ideal S128x128 .f32) (v18 : Vec Ideal S128 .f32) (v24 : Vec Ideal S128x32 .f32) (v27 : Vec Ideal S32 .f32)
    (v33 : Vec Ideal S32x1 .f32) (v36 : Vec Ideal S1 .f32) :
    k3_pay1 (F := Ideal) v0 v2 v4 v9 v15 v18 v24 v27 v33 v36 = head v0 v2 v4 v9 v15 v18 v24 v27 v33 v36 := by
  unfold k3_pay1 head
  dsimp only
  rw [prefix_eq_act,
    matmul_truncf_bias_eq_affine (D := dot_S4000x128_S128x128_S4000x128_1_0_0_1_n_n) ⟨rfl, rfl, rfl, rfl, rfl, rfl⟩,
    tanh_affine_eq_dense,
    matmul_truncf_bias_eq_affine (D := dot_S4000x128_S128x32_S4000x32_1_0_0_1_n_n) ⟨rfl, rfl, rfl, rfl, rfl, rfl⟩,
    tanh_affine_eq_dense,
    matmul_truncf_bias_eq_affine (D := dot_S4000x32_S32x1_S4000x1_1_0_0_1_n_n) ⟨rfl, rfl, rfl, rfl, rfl, rfl⟩]

end Cert.KernelIdeal.Pay

end
-- ==== Proof.RefStages.lean ====
/-
  The four dense stages of the graph network as the reference program spells them, on the full 100000-row arrays.

  The reference program writes every stage with whole-array operations: a matrix product is one dot_general; the
  self-loop term multiplies the features by a one-column array spread across the columns; a bias vector is first laid
  along a one-row array and that row is then repeated down all the rows; tanh is applied to the whole array.  Read at
  an entry (p, q), the spread column gives the column's entry (p, 0), the repeated row gives the vector's entry q, a
  sum, product or tanh of arrays is the sum, product or tanh of the entries, and the dot_general is the sum over k of
  x(p, k) · w(k, q).  These are exactly the entries of `act`, `dense`, `affine` and `matProd`, so

  * the input projection is `matProd x w` (`lin_eq`);
  * tanh(a + h·s + b) followed by the next weight matrix is `layer a h s b w` (`layer_eq`);
  * the last activation through two tanh layers and one plain layer is `head …` (`head_eq`).

  The first two lemmas are generic in the extents and in the records of the operations; the three theorems instantiate
  them at the reference program's shapes.  Nothing here needs an entry to be finite.
-/
import proofs.«143599_j26044681683633_1_alg».proof.ReferenceIdeal
import proofs.«143599_j26044681683633_1_alg».proof.Proof.LibGraphConvRows
import proofs.«143599_j26044681683633_1_alg».proof.Proof.LibTileOps
import proofs.«143599_j26044681683633_1_alg».proof.Proof.LibPlainDot
import proofs.«143599_j26044681683633_1_alg».proof.Proof.LibJoinedRows
import proofs.«143599_j26044681683633_1_alg».proof.Proof.LibRowBcast
import Idealize.ShloMosaic.PureOps.Ideal.Laws
import Idealize.ShloMosaic.Lib.ValueIdx

noncomputable section

namespace Cert.ReferenceIdeal.Stages

open Cert.ReferenceIdeal Idealize.ShloMosaic Idealize.ShloMosaic.ValueIdx Cert.LibTileOps Cert.GcnSpec

/-! ## Generic in the extents -/

section Generic
variable {A K B : ℕ}

/-- tanh of (a + h · (a one-column array spread across the columns) + (a vector repeated down the rows)) is the
    activation tanh(a + h·s + b), entry by entry. -/
private theorem combine_eq_act
    (hs : (⟨2, ![A, 1]⟩ : Shape).BroadcastsInDim ⟨2, ![A, B]⟩ (![0, 1] : Fin 2 → Fin 2))
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (a h : FVec Ideal ⟨2, ![A, B]⟩ .f32) (s : FVec Ideal ⟨2, ![A, 1]⟩ .f32) (b : FVec Ideal ⟨1, ![B]⟩ .f32) :
    Host.tanh (F := Ideal)
        (addf (addf a (mulf h (broadcastInDim ⟨2, ![A, B]⟩ ![0, 1] hs s)))
          (broadcastInDim ⟨2, ![A, B]⟩ ![0, 1] h2 (broadcastInDim ⟨2, ![1, B]⟩ ![1] h1 b)))
      = act a h s b := by
  funext i
  obtain ⟨p, q, rfl⟩ : ∃ (p : Fin A) (q : Fin B), i = ix2 p q := ⟨i 0, i 1, eq_ix2 i⟩
  show Ideal.tanh (a (ix2 p q) + h (ix2 p q) * broadcastInDim ⟨2, ![A, B]⟩ ![0, 1] hs s (ix2 p q)
        + broadcastInDim ⟨2, ![A, B]⟩ ![0, 1] h2 (broadcastInDim ⟨2, ![1, B]⟩ ![1] h1 b) (ix2 p q))
      = Ideal.tanh (a (ix2 p q) + h (ix2 p q) * s (ix2 p (0 : Fin 1)) + b (ix1 q))
  rw [Cert.LibJoinedRows.bcast_col_rows_apply, Cert.LibRowBcast.bcast_vec_rows_apply]

/-- A plain dot_general plus a vector repeated down the rows is x·w + b, entry by entry. -/
private theorem affine_stage {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ .f32) (w : FVec Ideal ⟨2, ![K, B]⟩ .f32) (b : FVec Ideal ⟨1, ![B]⟩ .f32) :
    addf (Host.dotGeneral (F := Ideal) D none x w)
        (broadcastInDim ⟨2, ![A, B]⟩ ![0, 1] h2 (broadcastInDim ⟨2, ![1, B]⟩ ![1] h1 b))
      = affine x w b := by
  rw [dotGeneral_eq_matProd hD none x w]
  funext i
  obtain ⟨p, q, rfl⟩ : ∃ (p : Fin A) (q : Fin B), i = ix2 p q := ⟨i 0, i 1, eq_ix2 i⟩
  show matProd x w (ix2 p q)
        + broadcastInDim ⟨2, ![A, B]⟩ ![0, 1] h2 (broadcastInDim ⟨2, ![1, B]⟩ ![1] h1 b) (ix2 p q)
      = matProd x w (ix2 p q) + b (ix1 q)
  rw [Cert.LibRowBcast.bcast_vec_rows_apply]

/-- The same under tanh: a dense layer tanh(x·w + b). -/
private theorem dense_stage {D : DotDims ⟨2, ![A, K]⟩ ⟨2, ![K, B]⟩ ⟨2, ![A, B]⟩} (hD : Cert.LibPlainDot.Plain D)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (x : FVec Ideal ⟨2, ![A, K]⟩ .f32) (w : FVec Ideal ⟨2, ![K, B]⟩ .f32) (b : FVec Ideal ⟨1, ![B]⟩ .f32) :
    Host.tanh (F := Ideal)
        (addf (Host.dotGeneral (F := Ideal) D none x w)
          (broadcastInDim ⟨2, ![A, B]⟩ ![0, 1] h2 (broadcastInDim ⟨2, ![1, B]⟩ ![1] h1 b)))
      = dense x w b := by
  rw [affine_stage hD h1 h2 x w b]
  rfl

end Generic

/-! ## At the reference program's shapes -/

section
variable [Facts₀]
open Facts₀

/-- The input projection: one dot_general of the node features with the first weight matrix. -/
theorem lin_eq (x : FVec Ideal S100000x9 .f32) (w : FVec Ideal S9x128 .f32) :
    Host.dotGeneral (F := Ideal) dot_S100000x9_S9x128_S100000x128_1_0_0_1_n_n none x w = matProd x w :=
  dotGeneral_eq_matProd ⟨rfl, rfl, rfl, rfl, rfl, rfl⟩ none x w

/-- One graph-convolution step's activation, then the next weight matrix. -/
theorem layer_eq (a h : FVec Ideal S100000x128 .f32) (s : FVec Ideal S100000x1 .f32) (b : FVec Ideal S128 .f32)
    (w : FVec Ideal S128x128 .f32) :
    Host.dotGeneral (F := Ideal) dot_S100000x128_S128x128_S100000x128_1_0_0_1_n_n none
        (Host.tanh (F := Ideal)
          (addf (addf a (mulf h (broadcastInDim S100000x128 ![0, 1] bcast_S100000x1_S100000x128_0_1 s)))
            (broadcastInDim S100000x128 ![0, 1] bcast_S1x128_S100000x128_0_1
              (broadcastInDim S1x128 ![1] bcast_S128_S1x128_1 b)))) w
      = layer a h s b w := by
  rw [combine_eq_act (A := 100000) (B := 128) bcast_S100000x1_S100000x128_0_1 bcast_S128_S1x128_1
    bcast_S1x128_S100000x128_0_1 a h s b]
  exact dotGeneral_eq_matProd ⟨rfl, rfl, rfl, rfl, rfl, rfl⟩ none _ w

/-- The last step's activation through the two tanh layers and the final plain layer. -/
theorem head_eq (a h : FVec Ideal S100000x128 .f32) (s : FVec Ideal S100000x1 .f32) (b : FVec Ideal S128 .f32)
    (w1 : FVec Ideal S128x128 .f32) (b1 : FVec Ideal S128 .f32) (w2 : FVec Ideal S128x32 .f32) (b2 : FVec Ideal S32 .f32)
    (w3 : FVec Ideal S32x1 .f32) (b3 : FVec Ideal S1 .f32) :
    addf (Host.dotGeneral (F := Ideal) dot_S100000x32_S32x1_S100000x1_1_0_0_1_n_n none
        (Host.tanh (F := Ideal) (addf (Host.dotGeneral (F := Ideal) dot_S100000x128_S128x32_S100000x32_1_0_0_1_n_n none
          (Host.tanh (F := Ideal) (addf (Host.dotGeneral (F := Ideal) dot_S100000x128_S128x128_S100000x128_1_0_0_1_n_n none
            (Host.tanh (F := Ideal)
              (addf (addf a (mulf h (broadcastInDim S100000x128 ![0, 1] bcast_S100000x1_S100000x128_0_1 s)))
                (broadcastInDim S100000x128 ![0, 1] bcast_S1x128_S100000x128_0_1
                  (broadcastInDim S1x128 ![1] bcast_S128_S1x128_1 b)))) w1)
            (broadcastInDim S100000x128 ![0, 1] bcast_S1x128_S100000x128_0_1
              (broadcastInDim S1x128 ![1] bcast_S128_S1x128_1 b1)))) w2)
          (broadcastInDim S100000x32 ![0, 1] bcast_S1x32_S100000x32_0_1
            (broadcastInDim S1x32 ![1] bcast_S32_S1x32_1 b2)))) w3)
        (broadcastInDim S100000x1 ![0, 1] bcast_S1x1_S100000x1_0_1 (broadcastInDim S1x1 ![1] bcast_S1_S1x1_1 b3))
      = head a h s b w1 b1 w2 b2 w3 b3 := by
  rw [combine_eq_act (A := 100000) (B := 128) bcast_S100000x1_S100000x128_0_1 bcast_S128_S1x128_1
    bcast_S1x128_S100000x128_0_1 a h s b]
  rw [dense_stage (A := 100000) (K := 128) (B := 128) ⟨rfl, rfl, rfl, rfl, rfl, rfl⟩ bcast_S128_S1x128_1
    bcast_S1x128_S100000x128_0_1 (act a h s b) w1 b1]
  rw [dense_stage (A := 100000) (K := 128) (B := 32) ⟨rfl, rfl, rfl, rfl, rfl, rfl⟩ bcast_S32_S1x32_1
    bcast_S1x32_S100000x32_0_1 (dense (act a h s b) w1 b1) w2 b2]
  exact affine_stage (A := 100000) (K := 32) (B := 1) ⟨rfl, rfl, rfl, rfl, rfl, rfl⟩ bcast_S1_S1x1_1
    bcast_S1x1_S100000x1_0_1 (dense (dense (act a h s b) w1 b1) w2 b2) w3 b3

end

end Cert.ReferenceIdeal.Stages

end
-- ==== Proof.RegionBase.lean ====
/-
  Blocks of 4000 rows.

  Each of the four tiled regions walks a grid of 25 points; at point t a row-indexed array is seen through the block of
  rows 4000·t … 4000·t + 3999 (all columns), a weight matrix or bias vector through its one whole block.  So row p of
  the block at point t is row 4000·t + p of the array.
-/
import proofs.«143599_j26044681683633_1_alg».proof.Proof.Gen.KernelIdeal.Frame
import proofs.«143599_j26044681683633_1_alg».proof.Proof.LibGraphConvRows
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.GcnSpec Cert.LibTileOps
open Idealize.ShloMosaic.Pipeline (Dat Cfg Window)

/-- Row `p` of block `t` is row `4000·t + p` of the array. -/
def blockRow (t : Fin 25) (p : Fin 4000) : Fin 100000 :=
  ⟨t.val * 4000 + p.val, by have := t.isLt; have := p.isLt; omega⟩

/-- The origin of a two-axis buffer. -/
theorem hz2 : (![0, 0] : Fin 2 → Nat) = fun _ => 0 := funext fun a => by fin_cases a <;> rfl
/-- The origin of a one-axis buffer. -/
theorem hz1 : (![0] : Fin 1 → Nat) = fun _ => 0 := funext fun a => by fin_cases a; rfl

end Cert.KernelIdeal.Regions

end
-- ==== Proof.Region3.lean ====
/-
  The fourth region: the last graph-convolution step's activation through the three-layer head, block by block.

  At point t the body reads rows 4000·t … of the aggregate, of the layer's own features and of the self-loop weights,
  and the whole of every weight matrix and bias vector, and writes rows 4000·t … of a one-column output.  The head
  function is row-local, so the block written is the block of the head function of the whole arrays, the 25 blocks
  cover the 100000 rows, and the output array ends holding the head function of the whole arrays.  The body's
  arithmetic enters as a hypothesis (that its stored value is the head function of its loaded blocks).
-/
import proofs.«143599_j26044681683633_1_alg».proof.Proof.Gen.KernelIdeal.Frame
import proofs.«143599_j26044681683633_1_alg».proof.Proof.LibGraphConvRows
import proofs.«143599_j26044681683633_1_alg».proof.Proof.RegionBase
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.GcnSpec Cert.LibTileOps
open Idealize.ShloMosaic.Pipeline (Dat Cfg Window)

variable (V : (c : Dev nD) → (b : Ref sig .tc) → Buf (Elt Ideal) ((c : Thread nD τ).loc b))

/-! ## Each window's block at a point (the block index decided over the 25 points) -/

/-- The aggregate: rows 4000·t …. -/
theorem idx3_0 : ∀ t : Fin cfg3.N, win3_0.index t (0 : Fin 2) = t.val ∧ win3_0.index t (1 : Fin 2) = 0 :=
  (by decide +kernel : ∀ t : Fin grid3.N, _)
theorem iblk3_0 (c : Dev nD) (t : Fin cfg3.N) : iblk3 V c 0 t = rows (blockRow t) (V c main_v67) := by
  funext y
  show V c main_v67 (((cfg3.win 0).blk t).view.emb y) = V c main_v67 (ix2 (blockRow t (y 0)) (y 1))
  refine congrArg (V c main_v67) ?_
  obtain ⟨e0, e1⟩ := idx3_0 t
  funext a; apply Fin.ext
  match a with
  | ⟨0, _⟩ => show win3_0.index t (0 : Fin 2) * 4000 + 1 * (y 0).val = t.val * 4000 + (y 0).val; omega
  | ⟨1, _⟩ => show win3_0.index t (1 : Fin 2) * 128 + 1 * (y 1).val = (y 1).val; omega

/-- The layer's own features: rows 4000·t …. -/
theorem idx3_1 : ∀ t : Fin cfg3.N, win3_1.index t (0 : Fin 2) = t.val ∧ win3_1.index t (1 : Fin 2) = 0 :=
  (by decide +kernel : ∀ t : Fin grid3.N, _)
theorem iblk3_1 (c : Dev nD) (t : Fin cfg3.N) : iblk3 V c 1 t = rows (blockRow t) (V c main_v55) := by
  funext y
  show V c main_v55 (((cfg3.win 1).blk t).view.emb y) = V c main_v55 (ix2 (blockRow t (y 0)) (y 1))
  refine congrArg (V c main_v55) ?_
  obtain ⟨e0, e1⟩ := idx3_1 t
  funext a; apply Fin.ext
  match a with
  | ⟨0, _⟩ => show win3_1.index t (0 : Fin 2) * 4000 + 1 * (y 0).val = t.val * 4000 + (y 0).val; omega
  | ⟨1, _⟩ => show win3_1.index t (1 : Fin 2) * 128 + 1 * (y 1).val = (y 1).val; omega

/-- The self-loop weights: rows 4000·t …. -/
theorem idx3_2 : ∀ t : Fin cfg3.N, win3_2.index t (0 : Fin 2) = t.val ∧ win3_2.index t (1 : Fin 2) = 0 :=
  (by decide +kernel : ∀ t : Fin grid3.N, _)
theorem iblk3_2 (c : Dev nD) (t : Fin cfg3.N) : iblk3 V c 2 t = rows (blockRow t) (V c main_v28) := by
  funext y
  show V c main_v28 (((cfg3.win 2).blk t).view.emb y) = V c main_v28 (ix2 (blockRow t (y 0)) (y 1))
  refine congrArg (V c main_v28) ?_
  obtain ⟨e0, e1⟩ := idx3_2 t
  funext a; apply Fin.ext
  match a with
  | ⟨0, _⟩ => show win3_2.index t (0 : Fin 2) * 4000 + 1 * (y 0).val = t.val * 4000 + (y 0).val; omega
  | ⟨1, _⟩ => show win3_2.index t (1 : Fin 2) * 1 + 1 * (y 1).val = (y 1).val; omega

/-- The step's bias vector, whole. -/
theorem idx3_3 : ∀ t : Fin cfg3.N, win3_3.index t (0 : Fin 1) = 0 :=
  (by decide +kernel : ∀ t : Fin grid3.N, _)
theorem iblk3_3 (c : Dev nD) (t : Fin cfg3.N) : iblk3 V c 3 t = V c main_arg10 := by
  funext y
  show V c main_arg10 (((cfg3.win 3).blk t).view.emb y) = V c main_arg10 y
  refine congrArg (V c main_arg10) ?_
  have e0 := idx3_3 t
  funext a; apply Fin.ext
  match a with
  | ⟨0, _⟩ => show win3_3.index t (0 : Fin 1) * 128 + 1 * (y 0).val = (y 0).val; omega

/-- The head's first weight matrix, whole. -/
theorem idx3_4 : ∀ t : Fin cfg3.N, win3_4.index t (0 : Fin 2) = 0 ∧ win3_4.index t (1 : Fin 2) = 0 :=
  (by decide +kernel : ∀ t : Fin grid3.N, _)
theorem iblk3_4 (c : Dev nD) (t : Fin cfg3.N) : iblk3 V c 4 t = V c main_arg11 := by
  funext y
  show V c main_arg11 (((cfg3.win 4).blk t).view.emb y) = V c main_arg11 y
  refine congrArg (V c main_arg11) ?_
  obtain ⟨e0, e1⟩ := idx3_4 t
  funext a; apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The head's first bias vector, whole. -/
theorem idx3_5 : ∀ t : Fin cfg3.N, win3_5.index t (0 : Fin 1) = 0 :=
  (by decide +kernel : ∀ t : Fin grid3.N, _)
theorem iblk3_5 (c : Dev nD) (t : Fin cfg3.N) : iblk3 V c 5 t = V c main_arg12 := by
  funext y
  show V c main_arg12 (((cfg3.win 5).blk t).view.emb y) = V c main_arg12 y
  refine congrArg (V c main_arg12) ?_
  have e0 := idx3_5 t
  funext a; apply Fin.ext
  match a with
  | ⟨0, _⟩ => show win3_5.index t (0 : Fin 1) * 128 + 1 * (y 0).val = (y 0).val; omega

/-- The head's second weight matrix, whole. -/
theorem idx3_6 : ∀ t : Fin cfg3.N, win3_6.index t (0 : Fin 2) = 0 ∧ win3_6.index t (1 : Fin 2) = 0 :=
  (by decide +kernel : ∀ t : Fin grid3.N, _)
theorem iblk3_6 (c : Dev nD) (t : Fin cfg3.N) : iblk3 V c 6 t = V c main_arg13 := by
  funext y
  show V c main_arg13 (((cfg3.win 6).blk t).view.emb y) = V c main_arg13 y
  refine congrArg (V c main_arg13) ?_
  obtain ⟨e0, e1⟩ := idx3_6 t
  funext a; apply Fin.ext
  match a with
  | ⟨0, _⟩ => show win3_6.index t (0 : Fin 2) * 128 + 1 * (y 0).val = (y 0).val; omega
  | ⟨1, _⟩ => show win3_6.index t (1 : Fin 2) * 32 + 1 * (y 1).val = (y 1).val; omega

/-- The head's second bias vector, whole. -/
theorem idx3_7 : ∀ t : Fin cfg3.N, win3_7.index t (0 : Fin 1) = 0 :=
  (by decide +kernel : ∀ t : Fin grid3.N, _)
theorem iblk3_7 (c : Dev nD) (t : Fin cfg3.N) : iblk3 V c 7 t = V c main_arg14 := by
  funext y
  show V c main_arg14 (((cfg3.win 7).blk t).view.emb y) = V c main_arg14 y
  refine congrArg (V c main_arg14) ?_
  have e0 := idx3_7 t
  funext a; apply Fin.ext
  match a with
  | ⟨0, _⟩ => show win3_7.index t (0 : Fin 1) * 32 + 1 * (y 0).val = (y 0).val; omega

/-- The head's third weight matrix, whole. -/
theorem idx3_8 : ∀ t : Fin cfg3.N, win3_8.index t (0 : Fin 2) = 0 ∧ win3_8.index t (1 : Fin 2) = 0 :=
  (by decide +kernel : ∀ t : Fin grid3.N, _)
theorem iblk3_8 (c : Dev nD) (t : Fin cfg3.N) : iblk3 V c 8 t = V c main_arg15 := by
  funext y
  show V c main_arg15 (((cfg3.win 8).blk t).view.emb y) = V c main_arg15 y
  refine congrArg (V c main_arg15) ?_
  obtain ⟨e0, e1⟩ := idx3_8 t
  funext a; apply Fin.ext
  match a with
  | ⟨0, _⟩ => show win3_8.index t (0 : Fin 2) * 32 + 1 * (y 0).val = (y 0).val; omega
  | ⟨1, _⟩ => show win3_8.index t (1 : Fin 2) * 1 + 1 * (y 1).val = (y 1).val; omega

/-- The head's third bias, whole. -/
theorem idx3_9 : ∀ t : Fin cfg3.N, win3_9.index t (0 : Fin 1) = 0 :=
  (by decide +kernel : ∀ t : Fin grid3.N, _)
theorem iblk3_9 (c : Dev nD) (t : Fin cfg3.N) : iblk3 V c 9 t = V c main_arg16 := by
  funext y
  show V c main_arg16 (((cfg3.win 9).blk t).view.emb y) = V c main_arg16 y
  refine congrArg (V c main_arg16) ?_
  have e0 := idx3_9 t
  funext a; apply Fin.ext
  match a with
  | ⟨0, _⟩ => show win3_9.index t (0 : Fin 1) * 1 + 1 * (y 0).val = (y 0).val; omega

/-- The output window: rows 4000·t …. -/
theorem idx3_10 : ∀ t : Fin cfg3.N, win3_10.index t (0 : Fin 2) = t.val ∧ win3_10.index t (1 : Fin 2) = 0 :=
  (by decide +kernel : ∀ t : Fin grid3.N, _)

/-- Reading a whole-array function through the output's block at point t selects its rows 4000·t …. -/
theorem read_out3 (t : Fin cfg3.N) (G : FVec Ideal ⟨2, ![100000, 1]⟩ .f32) :
    ((cfg3.win 10).blk t).view.read (Elt Ideal) G = rows (blockRow t) G := by
  funext y
  show G (((cfg3.win 10).blk t).view.emb y) = G (ix2 (blockRow t (y 0)) (y 1))
  refine congrArg G ?_
  obtain ⟨e0, e1⟩ := idx3_10 t
  funext a; apply Fin.ext
  match a with
  | ⟨0, _⟩ => show win3_10.index t (0 : Fin 2) * 4000 + 1 * (y 0).val = t.val * 4000 + (y 0).val; omega
  | ⟨1, _⟩ => show win3_10.index t (1 : Fin 2) * 1 + 1 * (y 1).val = (y 1).val; omega

/-! ## The output array -/

/-- What point t writes back is block t of the head function of the whole arrays. -/
theorem flushed3_eq (pay : ∀ (v0 v2 : Vec Ideal S4000x128 .f32) (v4 : Vec Ideal S4000x1 .f32) (v9 : Vec Ideal S128 .f32)
      (v15 : Vec Ideal S128x128 .f32) (v18 : Vec Ideal S128 .f32) (v24 : Vec Ideal S128x32 .f32) (v27 : Vec Ideal S32 .f32)
      (v33 : Vec Ideal S32x1 .f32) (v36 : Vec Ideal S1 .f32),
      k3_pay1 (F := Ideal) v0 v2 v4 v9 v15 v18 v24 v27 v33 v36 = head v0 v2 v4 v9 v15 v18 v24 v27 v33 v36)
    (c : Dev nD) (t : Fin cfg3.N) :
    (dat3 V c).flushed 10 t = ((cfg3.win 10).blk t).view.read (Elt Ideal)
      (head (V c main_v67) (V c main_v55) (V c main_v28) (V c main_arg10) (V c main_arg11) (V c main_arg12)
      (V c main_arg13) (V c main_arg14) (V c main_arg15) (V c main_arg16)) := by
  show (cfg3.win 10).cut (grid3.coords t) ((dat3 V c).after 10 t) = _
  rw [after3_10]
  unfold out3_10
  rw [View.canon_unit_zero hz2]
  simp only [View.ld_unit_zero (S := S4000x128) hz2, View.ld_unit_zero (S := S4000x1) hz2, View.ld_unit_zero (S := S128) hz1,
    View.ld_unit_zero (S := S128x128) hz2, View.ld_unit_zero (S := S128x32) hz2, View.ld_unit_zero (S := S32) hz1,
    View.ld_unit_zero (S := S32x1) hz2, View.ld_unit_zero (S := S1) hz1]
  rw [pay, iblk3_0, iblk3_1, iblk3_2, iblk3_3, iblk3_4, iblk3_5, iblk3_6, iblk3_7, iblk3_8, iblk3_9, head_rows, read_out3]
  rfl

/-- An index is in point t's output block iff each coordinate is in the block's range. -/
theorem mem_blk3 (t : Fin cfg3.N) (i : S100000x1.Idx) :
    i ∈ ((cfg3.win 10).blk t).view.set ↔ ∀ a : Fin 2, win3_10.index t a * S4000x1.size a ≤ (i a).val ∧ (i a).val < win3_10.index t a * S4000x1.size a + S4000x1.size a := by
  show i ∈ ((View.whole main_v68).slice (win3_10.rect t)).set ↔ _
  rw [View.set_slice_whole, Rect.mem_set_unit]
  exact Iff.rfl

/-- Row r lies in the block of point r / 4000. -/
theorem cover3 (i : S100000x1.Idx) : ∃ t : Fin cfg3.N, (cfg3.win 10).flush t = true ∧ i ∈ ((cfg3.win 10).blk t).view.set := by
  have hi0 : (i 0).val < 100000 := (i 0).isLt
  have hi1 : (i 1).val < 1 := (i 1).isLt
  refine ⟨⟨(i 0).val / 4000, by show (i 0).val / 4000 < 25; omega⟩, flush3_10 _, ?_⟩
  rw [mem_blk3]
  obtain ⟨e0, e1⟩ := idx3_10 ⟨(i 0).val / 4000, by show (i 0).val / 4000 < 25; omega⟩
  intro a
  match a with
  | ⟨0, _⟩ => show win3_10.index _ (0 : Fin 2) * 4000 ≤ (i 0).val ∧ (i 0).val < win3_10.index _ (0 : Fin 2) * 4000 + 4000; rw [e0]; show (i 0).val / 4000 * 4000 ≤ (i 0).val ∧ (i 0).val < (i 0).val / 4000 * 4000 + 4000; omega
  | ⟨1, _⟩ => show win3_10.index _ (1 : Fin 2) * 1 ≤ (i 1).val ∧ (i 1).val < win3_10.index _ (1 : Fin 2) * 1 + 1; rw [e1]; omega

/-- The region leaves the head function of the whole arrays in its output array. -/
theorem arr3 (pay : ∀ (v0 v2 : Vec Ideal S4000x128 .f32) (v4 : Vec Ideal S4000x1 .f32) (v9 : Vec Ideal S128 .f32)
      (v15 : Vec Ideal S128x128 .f32) (v18 : Vec Ideal S128 .f32) (v24 : Vec Ideal S128x32 .f32) (v27 : Vec Ideal S32 .f32)
      (v33 : Vec Ideal S32x1 .f32) (v36 : Vec Ideal S1 .f32),
      k3_pay1 (F := Ideal) v0 v2 v4 v9 v15 v18 v24 v27 v33 v36 = head v0 v2 v4 v9 v15 v18 v24 v27 v33 v36)
    (c : Dev nD) : (dat3 V c).arrAt 10 cfg3.N = head (V c main_v67) (V c main_v55) (V c main_v28) (V c main_arg10) (V c main_arg11) (V c main_arg12)
      (V c main_arg13) (V c main_arg14) (V c main_arg15) (V c main_arg16) :=
  (dat3 V c).arrAt_eq_of_cover 10 (head (V c main_v67) (V c main_v55) (V c main_v28) (V c main_arg10) (V c main_arg11) (V c main_arg12)
      (V c main_arg13) (V c main_arg14) (V c main_arg15) (V c main_arg16))
    (fun t _ => flushed3_eq V pay c t) cover3

end Cert.KernelIdeal.Regions

end
-- ==== Proof.Region1.lean ====
/-
  The second region: the first graph-convolution step's activation times W1, block by block.

  At point t the body reads rows 4000·t … of the aggregate, of the layer's own features and of the one-column array of
  self-loop weights, the whole bias vector and the whole weight matrix, and writes rows 4000·t … of the output.  The
  layer function is row-local, so the block written is the block of the layer function of the whole arrays, the 25
  blocks cover the 100000 rows, and the output array ends holding the layer function of the whole arrays.  The body's
  arithmetic enters as a hypothesis (that its stored value is the layer function of its loaded blocks).
-/
import proofs.«143599_j26044681683633_1_alg».proof.Proof.Gen.KernelIdeal.Frame
import proofs.«143599_j26044681683633_1_alg».proof.Proof.LibGraphConvRows
import proofs.«143599_j26044681683633_1_alg».proof.Proof.RegionBase
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.GcnSpec Cert.LibTileOps
open Idealize.ShloMosaic.Pipeline (Dat Cfg Window)

variable (V : (c : Dev nD) → (b : Ref sig .tc) → Buf (Elt Ideal) ((c : Thread nD τ).loc b))

/-- The block index of each window at each grid point, decided over the 25 points. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of the aggregate at point t is its rows 4000·t …. -/
theorem iblk1_0 (c : Dev nD) (t : Fin cfg1.N) : iblk1 V c 0 t = rows (blockRow t) (V c main_v41) := by
  funext y
  show V c main_v41 (((cfg1.win 0).blk t).view.emb y) = V c main_v41 (ix2 (blockRow t (y 0)) (y 1))
  refine congrArg (V c main_v41) ?_
  obtain ⟨e0, e1, -⟩ := idx_facts1 t
  funext a; apply Fin.ext
  match a with
  | ⟨0, _⟩ => show win1_0.index t (0 : Fin 2) * 4000 + 1 * (y 0).val = t.val * 4000 + (y 0).val; omega
  | ⟨1, _⟩ => show win1_0.index t (1 : Fin 2) * 128 + 1 * (y 1).val = (y 1).val; omega

/-- The block of the layer's own features at point t is its rows 4000·t …. -/
theorem iblk1_1 (c : Dev nD) (t : Fin cfg1.N) : iblk1 V c 1 t = rows (blockRow t) (V c main_v29) := by
  funext y
  show V c main_v29 (((cfg1.win 1).blk t).view.emb y) = V c main_v29 (ix2 (blockRow t (y 0)) (y 1))
  refine congrArg (V c main_v29) ?_
  obtain ⟨-, -, e0, e1, -⟩ := idx_facts1 t
  funext a; apply Fin.ext
  match a with
  | ⟨0, _⟩ => show win1_1.index t (0 : Fin 2) * 4000 + 1 * (y 0).val = t.val * 4000 + (y 0).val; omega
  | ⟨1, _⟩ => show win1_1.index t (1 : Fin 2) * 128 + 1 * (y 1).val = (y 1).val; omega

/-- The block of the self-loop weights at point t is its rows 4000·t …. -/
theorem iblk1_2 (c : Dev nD) (t : Fin cfg1.N) : iblk1 V c 2 t = rows (blockRow t) (V c main_v28) := by
  funext y
  show V c main_v28 (((cfg1.win 2).blk t).view.emb y) = V c main_v28 (ix2 (blockRow t (y 0)) (y 1))
  refine congrArg (V c main_v28) ?_
  obtain ⟨-, -, -, -, e0, e1, -⟩ := idx_facts1 t
  funext a; apply Fin.ext
  match a with
  | ⟨0, _⟩ => show win1_2.index t (0 : Fin 2) * 4000 + 1 * (y 0).val = t.val * 4000 + (y 0).val; omega
  | ⟨1, _⟩ => show win1_2.index t (1 : Fin 2) * 1 + 1 * (y 1).val = (y 1).val; omega

/-- The block of the bias vector is the whole of it. -/
theorem iblk1_3 (c : Dev nD) (t : Fin cfg1.N) : iblk1 V c 3 t = V c main_arg6 := by
  funext y
  show V c main_arg6 (((cfg1.win 3).blk t).view.emb y) = V c main_arg6 y
  refine congrArg (V c main_arg6) ?_
  obtain ⟨-, -, -, -, -, -, e0, -⟩ := idx_facts1 t
  funext a; apply Fin.ext
  match a with
  | ⟨0, _⟩ => show win1_3.index t (0 : Fin 1) * 128 + 1 * (y 0).val = (y 0).val; omega

/-- The block of the weight matrix is the whole of it. -/
theorem iblk1_4 (c : Dev nD) (t : Fin cfg1.N) : iblk1 V c 4 t = V c main_arg7 := by
  funext y
  show V c main_arg7 (((cfg1.win 4).blk t).view.emb y) = V c main_arg7 y
  refine congrArg (V c main_arg7) ?_
  obtain ⟨-, -, -, -, -, -, -, e0, e1, -⟩ := idx_facts1 t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Reading a whole-array function through the output's block at point t selects its rows 4000·t …. -/
theorem read_out1 (t : Fin cfg1.N) (G : FVec Ideal ⟨2, ![100000, 128]⟩ .f32) :
    ((cfg1.win 5).blk t).view.read (Elt Ideal) G = rows (blockRow t) G := by
  funext y
  show G (((cfg1.win 5).blk t).view.emb y) = G (ix2 (blockRow t (y 0)) (y 1))
  refine congrArg G ?_
  obtain ⟨-, -, -, -, -, -, -, -, -, e0, e1⟩ := idx_facts1 t
  funext a; apply Fin.ext
  match a with
  | ⟨0, _⟩ => show win1_5.index t (0 : Fin 2) * 4000 + 1 * (y 0).val = t.val * 4000 + (y 0).val; omega
  | ⟨1, _⟩ => show win1_5.index t (1 : Fin 2) * 128 + 1 * (y 1).val = (y 1).val; omega

/-- What point t writes back is block t of the layer function of the whole arrays. -/
theorem flushed1_eq (pay : ∀ (v0 v2 : Vec Ideal S4000x128 .f32) (v4 : Vec Ideal S4000x1 .f32) (v9 : Vec Ideal S128 .f32)
      (v15 : Vec Ideal S128x128 .f32), k1_pay1 (F := Ideal) v0 v2 v4 v9 v15 = layer v0 v2 v4 v9 v15)
    (c : Dev nD) (t : Fin cfg1.N) :
    (dat1 V c).flushed 5 t = ((cfg1.win 5).blk t).view.read (Elt Ideal)
      (layer (V c main_v41) (V c main_v29) (V c main_v28) (V c main_arg6) (V c main_arg7)) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S4000x1) hz2, View.ld_unit_zero (S := S128) hz1,
    View.ld_unit_zero (S := S128x128) hz2]
  rw [pay, iblk1_0, iblk1_1, iblk1_2, iblk1_3, iblk1_4, layer_rows, read_out1]
  rfl

/-- An index is in point t's output block iff each coordinate is in the block's range. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v42).slice (win1_5.rect t)).set ↔ _
  rw [View.set_slice_whole, Rect.mem_set_unit]
  exact Iff.rfl

/-- Row r lies in the block of point r / 4000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 4000, by show (i 0).val / 4000 < 25; omega⟩, flush1_5 _, ?_⟩
  rw [mem_blk1]
  obtain ⟨-, -, -, -, -, -, -, -, -, e0, e1⟩ := idx_facts1 ⟨(i 0).val / 4000, by show (i 0).val / 4000 < 25; omega⟩
  intro a
  match a with
  | ⟨0, _⟩ => show win1_5.index _ (0 : Fin 2) * 4000 ≤ (i 0).val ∧ (i 0).val < win1_5.index _ (0 : Fin 2) * 4000 + 4000; rw [e0]; show (i 0).val / 4000 * 4000 ≤ (i 0).val ∧ (i 0).val < (i 0).val / 4000 * 4000 + 4000; omega
  | ⟨1, _⟩ => show win1_5.index _ (1 : Fin 2) * 128 ≤ (i 1).val ∧ (i 1).val < win1_5.index _ (1 : Fin 2) * 128 + 128; rw [e1]; omega

/-- The region leaves the layer function of the whole arrays in its output array. -/
theorem arr1 (pay : ∀ (v0 v2 : Vec Ideal S4000x128 .f32) (v4 : Vec Ideal S4000x1 .f32) (v9 : Vec Ideal S128 .f32)
      (v15 : Vec Ideal S128x128 .f32), k1_pay1 (F := Ideal) v0 v2 v4 v9 v15 = layer v0 v2 v4 v9 v15)
    (c : Dev nD) : (dat1 V c).arrAt 5 cfg1.N = layer (V c main_v41) (V c main_v29) (V c main_v28) (V c main_arg6) (V c main_arg7) :=
  (dat1 V c).arrAt_eq_of_cover 5 (layer (V c main_v41) (V c main_v29) (V c main_v28) (V c main_arg6) (V c main_arg7))
    (fun t _ => flushed1_eq V pay c t) cover1

end Cert.KernelIdeal.Regions

end
-- ==== Proof.Region2.lean ====
/-
  The third region: the second graph-convolution step's activation times W2, block by block.

  At point t the body reads rows 4000·t … of the aggregate, of the layer's own features and of the one-column array of
  self-loop weights, the whole bias vector and the whole weight matrix, and writes rows 4000·t … of the output.  The
  layer function is row-local, so the block written is the block of the layer function of the whole arrays, the 25
  blocks cover the 100000 rows, and the output array ends holding the layer function of the whole arrays.  The body's
  arithmetic enters as a hypothesis (that its stored value is the layer function of its loaded blocks).
-/
import proofs.«143599_j26044681683633_1_alg».proof.Proof.Gen.KernelIdeal.Frame
import proofs.«143599_j26044681683633_1_alg».proof.Proof.LibGraphConvRows
import proofs.«143599_j26044681683633_1_alg».proof.Proof.RegionBase
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.GcnSpec Cert.LibTileOps
open Idealize.ShloMosaic.Pipeline (Dat Cfg Window)

variable (V : (c : Dev nD) → (b : Ref sig .tc) → Buf (Elt Ideal) ((c : Thread nD τ).loc b))

/-- The block index of each window at each grid point, decided over the 25 points. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of the aggregate at point t is its rows 4000·t …. -/
theorem iblk2_0 (c : Dev nD) (t : Fin cfg2.N) : iblk2 V c 0 t = rows (blockRow t) (V c main_v54) := by
  funext y
  show V c main_v54 (((cfg2.win 0).blk t).view.emb y) = V c main_v54 (ix2 (blockRow t (y 0)) (y 1))
  refine congrArg (V c main_v54) ?_
  obtain ⟨e0, e1, -⟩ := idx_facts2 t
  funext a; apply Fin.ext
  match a with
  | ⟨0, _⟩ => show win2_0.index t (0 : Fin 2) * 4000 + 1 * (y 0).val = t.val * 4000 + (y 0).val; omega
  | ⟨1, _⟩ => show win2_0.index t (1 : Fin 2) * 128 + 1 * (y 1).val = (y 1).val; omega

/-- The block of the layer's own features at point t is its rows 4000·t …. -/
theorem iblk2_1 (c : Dev nD) (t : Fin cfg2.N) : iblk2 V c 1 t = rows (blockRow t) (V c main_v42) := by
  funext y
  show V c main_v42 (((cfg2.win 1).blk t).view.emb y) = V c main_v42 (ix2 (blockRow t (y 0)) (y 1))
  refine congrArg (V c main_v42) ?_
  obtain ⟨-, -, e0, e1, -⟩ := idx_facts2 t
  funext a; apply Fin.ext
  match a with
  | ⟨0, _⟩ => show win2_1.index t (0 : Fin 2) * 4000 + 1 * (y 0).val = t.val * 4000 + (y 0).val; omega
  | ⟨1, _⟩ => show win2_1.index t (1 : Fin 2) * 128 + 1 * (y 1).val = (y 1).val; omega

/-- The block of the self-loop weights at point t is its rows 4000·t …. -/
theorem iblk2_2 (c : Dev nD) (t : Fin cfg2.N) : iblk2 V c 2 t = rows (blockRow t) (V c main_v28) := by
  funext y
  show V c main_v28 (((cfg2.win 2).blk t).view.emb y) = V c main_v28 (ix2 (blockRow t (y 0)) (y 1))
  refine congrArg (V c main_v28) ?_
  obtain ⟨-, -, -, -, e0, e1, -⟩ := idx_facts2 t
  funext a; apply Fin.ext
  match a with
  | ⟨0, _⟩ => show win2_2.index t (0 : Fin 2) * 4000 + 1 * (y 0).val = t.val * 4000 + (y 0).val; omega
  | ⟨1, _⟩ => show win2_2.index t (1 : Fin 2) * 1 + 1 * (y 1).val = (y 1).val; omega

/-- The block of the bias vector is the whole of it. -/
theorem iblk2_3 (c : Dev nD) (t : Fin cfg2.N) : iblk2 V c 3 t = V c main_arg8 := by
  funext y
  show V c main_arg8 (((cfg2.win 3).blk t).view.emb y) = V c main_arg8 y
  refine congrArg (V c main_arg8) ?_
  obtain ⟨-, -, -, -, -, -, e0, -⟩ := idx_facts2 t
  funext a; apply Fin.ext
  match a with
  | ⟨0, _⟩ => show win2_3.index t (0 : Fin 1) * 128 + 1 * (y 0).val = (y 0).val; omega

/-- The block of the weight matrix is the whole of it. -/
theorem iblk2_4 (c : Dev nD) (t : Fin cfg2.N) : iblk2 V c 4 t = V c main_arg9 := by
  funext y
  show V c main_arg9 (((cfg2.win 4).blk t).view.emb y) = V c main_arg9 y
  refine congrArg (V c main_arg9) ?_
  obtain ⟨-, -, -, -, -, -, -, e0, e1, -⟩ := idx_facts2 t
  funext a; apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Reading a whole-array function through the output's block at point t selects its rows 4000·t …. -/
theorem read_out2 (t : Fin cfg2.N) (G : FVec Ideal ⟨2, ![100000, 128]⟩ .f32) :
    ((cfg2.win 5).blk t).view.read (Elt Ideal) G = rows (blockRow t) G := by
  funext y
  show G (((cfg2.win 5).blk t).view.emb y) = G (ix2 (blockRow t (y 0)) (y 1))
  refine congrArg G ?_
  obtain ⟨-, -, -, -, -, -, -, -, -, e0, e1⟩ := idx_facts2 t
  funext a; apply Fin.ext
  match a with
  | ⟨0, _⟩ => show win2_5.index t (0 : Fin 2) * 4000 + 1 * (y 0).val = t.val * 4000 + (y 0).val; omega
  | ⟨1, _⟩ => show win2_5.index t (1 : Fin 2) * 128 + 1 * (y 1).val = (y 1).val; omega

/-- What point t writes back is block t of the layer function of the whole arrays. -/
theorem flushed2_eq (pay : ∀ (v0 v2 : Vec Ideal S4000x128 .f32) (v4 : Vec Ideal S4000x1 .f32) (v9 : Vec Ideal S128 .f32)
      (v15 : Vec Ideal S128x128 .f32), k2_pay1 (F := Ideal) v0 v2 v4 v9 v15 = layer v0 v2 v4 v9 v15)
    (c : Dev nD) (t : Fin cfg2.N) :
    (dat2 V c).flushed 5 t = ((cfg2.win 5).blk t).view.read (Elt Ideal)
      (layer (V c main_v54) (V c main_v42) (V c main_v28) (V c main_arg8) (V c main_arg9)) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S4000x1) hz2, View.ld_unit_zero (S := S128) hz1,
    View.ld_unit_zero (S := S128x128) hz2]
  rw [pay, iblk2_0, iblk2_1, iblk2_2, iblk2_3, iblk2_4, layer_rows, read_out2]
  rfl

/-- An index is in point t's output block iff each coordinate is in the block's range. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v55).slice (win2_5.rect t)).set ↔ _
  rw [View.set_slice_whole, Rect.mem_set_unit]
  exact Iff.rfl

/-- Row r lies in the block of point r / 4000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 4000, by show (i 0).val / 4000 < 25; omega⟩, flush2_5 _, ?_⟩
  rw [mem_blk2]
  obtain ⟨-, -, -, -, -, -, -, -, -, e0, e1⟩ := idx_facts2 ⟨(i 0).val / 4000, by show (i 0).val / 4000 < 25; omega⟩
  intro a
  match a with
  | ⟨0, _⟩ => show win2_5.index _ (0 : Fin 2) * 4000 ≤ (i 0).val ∧ (i 0).val < win2_5.index _ (0 : Fin 2) * 4000 + 4000; rw [e0]; show (i 0).val / 4000 * 4000 ≤ (i 0).val ∧ (i 0).val < (i 0).val / 4000 * 4000 + 4000; omega
  | ⟨1, _⟩ => show win2_5.index _ (1 : Fin 2) * 128 ≤ (i 1).val ∧ (i 1).val < win2_5.index _ (1 : Fin 2) * 128 + 128; rw [e1]; omega

/-- The region leaves the layer function of the whole arrays in its output array. -/
theorem arr2 (pay : ∀ (v0 v2 : Vec Ideal S4000x128 .f32) (v4 : Vec Ideal S4000x1 .f32) (v9 : Vec Ideal S128 .f32)
      (v15 : Vec Ideal S128x128 .f32), k2_pay1 (F := Ideal) v0 v2 v4 v9 v15 = layer v0 v2 v4 v9 v15)
    (c : Dev nD) : (dat2 V c).arrAt 5 cfg2.N = layer (V c main_v54) (V c main_v42) (V c main_v28) (V c main_arg8) (V c main_arg9) :=
  (dat2 V c).arrAt_eq_of_cover 5 (layer (V c main_v54) (V c main_v42) (V c main_v28) (V c main_arg8) (V c main_arg9))
    (fun t _ => flushed2_eq V pay c t) cover2

end Cert.KernelIdeal.Regions

end
-- ==== Proof.Region0.lean ====
/-
  The first region: x · W_in, block by block.

  At point t the body multiplies rows 4000·t … of x by the whole of W_in and writes rows 4000·t … of the output.  The
  matrix product is row-local, so the block written is the block of the whole product, the 25 blocks cover the
  100000 rows, and the output array ends holding the product of the whole arrays.  The body's arithmetic enters as a
  hypothesis (that its stored value is the matrix product of its loaded blocks).
-/
import proofs.«143599_j26044681683633_1_alg».proof.Proof.Gen.KernelIdeal.Frame
import proofs.«143599_j26044681683633_1_alg».proof.Proof.LibGraphConvRows
import proofs.«143599_j26044681683633_1_alg».proof.Proof.RegionBase
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem Cert.GcnSpec Cert.LibTileOps
open Idealize.ShloMosaic.Pipeline (Dat Cfg Window)

variable (V : (c : Dev nD) → (b : Ref sig .tc) → Buf (Elt Ideal) ((c : Thread nD τ).loc b))

/-- The block index of each window at each grid point, decided over the 25 points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is its rows 4000·t …. -/
theorem iblk0_0 (c : Dev nD) (t : Fin cfg0.N) : iblk0 V c 0 t = rows (blockRow t) (V c main_arg0) := by
  funext y
  show V c main_arg0 (((cfg0.win 0).blk t).view.emb y) = V c main_arg0 (ix2 (blockRow t (y 0)) (y 1))
  refine congrArg (V c main_arg0) ?_
  obtain ⟨e0, e1, -, -, -, -⟩ := idx_facts0 t
  funext a; apply Fin.ext
  match a with
  | ⟨0, _⟩ => show win0_0.index t (0 : Fin 2) * 4000 + 1 * (y 0).val = t.val * 4000 + (y 0).val; omega
  | ⟨1, _⟩ => show win0_0.index t (1 : Fin 2) * 9 + 1 * (y 1).val = (y 1).val; omega

/-- The block of W_in is the whole of it. -/
theorem iblk0_1 (c : Dev nD) (t : Fin cfg0.N) : iblk0 V c 1 t = V c main_arg5 := by
  funext y
  show V c main_arg5 (((cfg0.win 1).blk t).view.emb y) = V c main_arg5 y
  refine congrArg (V c main_arg5) ?_
  obtain ⟨-, -, e0, e1, -, -⟩ := idx_facts0 t
  funext a; apply Fin.ext
  match a with
  | ⟨0, _⟩ => show win0_1.index t (0 : Fin 2) * 9 + 1 * (y 0).val = (y 0).val; omega
  | ⟨1, _⟩ => show win0_1.index t (1 : Fin 2) * 128 + 1 * (y 1).val = (y 1).val; omega

/-- Reading a whole-array function through the output's block at point t selects its rows 4000·t …. -/
theorem read_out0 (t : Fin cfg0.N) (G : FVec Ideal ⟨2, ![100000, 128]⟩ .f32) :
    ((cfg0.win 2).blk t).view.read (Elt Ideal) G = rows (blockRow t) G := by
  funext y
  show G (((cfg0.win 2).blk t).view.emb y) = G (ix2 (blockRow t (y 0)) (y 1))
  refine congrArg G ?_
  obtain ⟨-, -, -, -, e0, e1⟩ := idx_facts0 t
  funext a; apply Fin.ext
  match a with
  | ⟨0, _⟩ => show win0_2.index t (0 : Fin 2) * 4000 + 1 * (y 0).val = t.val * 4000 + (y 0).val; omega
  | ⟨1, _⟩ => show win0_2.index t (1 : Fin 2) * 128 + 1 * (y 1).val = (y 1).val; omega

/-- What point t writes back is block t of the whole product. -/
theorem flushed0_eq (pay0 : ∀ (x0 : Vec Ideal S4000x9 .f32) (x2 : Vec Ideal S9x128 .f32), k0_pay1 (F := Ideal) x0 x2 = matProd x0 x2)
    (c : Dev nD) (t : Fin cfg0.N) :
    (dat0 V c).flushed 2 t = ((cfg0.win 2).blk t).view.read (Elt Ideal) (matProd (V c main_arg0) (V c main_arg5)) := by
  show (cfg0.win 2).cut (grid0.coords t) ((dat0 V c).after 2 t) = _
  rw [after0_2]
  unfold out0_2
  rw [View.canon_unit_zero hz2]
  simp only [View.ld_unit_zero (S := S4000x9) hz2, View.ld_unit_zero (S := S9x128) hz2]
  rw [pay0, iblk0_0, iblk0_1, matProd_rows, read_out0]
  rfl

/-- An index is in point t's output block iff each coordinate is in the block's range. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v29).slice (win0_2.rect t)).set ↔ _
  rw [View.set_slice_whole, Rect.mem_set_unit]
  exact Iff.rfl

/-- Row r lies in the block of point r / 4000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 4000, by show (i 0).val / 4000 < 25; omega⟩, flush0_2 _, ?_⟩
  rw [mem_blk0]
  obtain ⟨-, -, -, -, e0, e1⟩ := idx_facts0 ⟨(i 0).val / 4000, by show (i 0).val / 4000 < 25; omega⟩
  intro a
  match a with
  | ⟨0, _⟩ => show win0_2.index _ (0 : Fin 2) * 4000 ≤ (i 0).val ∧ (i 0).val < win0_2.index _ (0 : Fin 2) * 4000 + 4000; rw [e0]; show (i 0).val / 4000 * 4000 ≤ (i 0).val ∧ (i 0).val < (i 0).val / 4000 * 4000 + 4000; omega
  | ⟨1, _⟩ => show win0_2.index _ (1 : Fin 2) * 128 ≤ (i 1).val ∧ (i 1).val < win0_2.index _ (1 : Fin 2) * 128 + 128; rw [e1]; omega

/-- The first region leaves the matrix product of the whole arrays in its output array. -/
theorem arr0 (pay0 : ∀ (x0 : Vec Ideal S4000x9 .f32) (x2 : Vec Ideal S9x128 .f32), k0_pay1 (F := Ideal) x0 x2 = matProd x0 x2)
    (c : Dev nD) : (dat0 V c).arrAt 2 cfg0.N = matProd (V c main_arg0) (V c main_arg5) :=
  (dat0 V c).arrAt_eq_of_cover 2 (matProd (V c main_arg0) (V c main_arg5)) (fun t _ => flushed0_eq V pay0 c t) cover0

end Cert.KernelIdeal.Regions

end
-- ==== Proof.BoundA.lean ====
/-
  What the kernel program's buffers hold at its first three segment boundaries, as functions of the arguments.

  The same functions of the arguments are what the reference computes into its own buffers: the edge endpoints, the
  edge and self-loop weights from the in-degrees, the input features times W_in, and the first neighbourhood
  aggregate.  The host stretches are the reference's own operations on equal operands; the first tiled region leaves
  the whole matrix product, which the reference spells as one contraction.  A buffer that a segment does not write is
  carried across it unchanged.
-/
import proofs.«143599_j26044681683633_1_alg».proof.Proof.Gen.KernelIdeal.Frame
import proofs.«143599_j26044681683633_1_alg».proof.Proof.Gen.ReferenceIdeal.Read
import proofs.«143599_j26044681683633_1_alg».proof.Proof.KPay
import proofs.«143599_j26044681683633_1_alg».proof.Proof.RefStages
import proofs.«143599_j26044681683633_1_alg».proof.Proof.Region0
set_option maxRecDepth 16384

noncomputable section

namespace Cert.KernelIdeal.Bounds

open Cert.KernelIdeal Cert.KernelIdeal.Gen Idealize.ShloMosaic Idealize.ShloMosaic.TcCoe Idealize.ShloMosaic.StableHlo
open Idealize.SL.Sem Cert.ReferenceIdeal.Read

variable (m : (ℓ : Loc nD τ sig) → Buf (Elt Ideal) ℓ) (ρ : Dev nD → PrngReg) (c : Dev nD)

/-! ## After the first host stretch -/

theorem w1_v1 : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
theorem w1_v26 : W1 m ρ c (Proc.devRef .tc main_v26) = val_main_v26 (F := Ideal) (m ((c : Thread nD τ).loc main_arg1)) := by
  show StableHlo.after hostOps0 (W0 m ρ c) (Proc.devRef .tc main_v26) = _
  after_results_simp <;> rfl
theorem w1_v28 : W1 m ρ c (Proc.devRef .tc main_v28) = val_main_v28 (F := Ideal) (m ((c : Thread nD τ).loc main_arg1)) := by
  show StableHlo.after hostOps0 (W0 m ρ c) (Proc.devRef .tc main_v28) = _
  after_results_simp <;> rfl
theorem w1_arg0 : W1 m ρ c (Proc.devRef .tc main_arg0) = (m ((c : Thread nD τ).loc main_arg0)) := by
  show StableHlo.after hostOps0 (W0 m ρ c) (Proc.devRef .tc main_arg0) = _
  after_results_simp <;> rfl
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w1_arg9 : W1 m ρ c (Proc.devRef .tc main_arg9) = (m ((c : Thread nD τ).loc main_arg9)) := by
  show StableHlo.after hostOps0 (W0 m ρ c) (Proc.devRef .tc main_arg9) = _
  after_results_simp <;> rfl

/-! ## After the first region -/

/-- The region's output is the reference's first contraction. -/
theorem w2_v29 : W2 m ρ c (Proc.devRef .tc main_v29) = val_main_v29 (F := Ideal) (m ((c : Thread nD τ).loc main_arg0)) (m ((c : Thread nD τ).loc main_arg5)) :=
  (W2_arr m ρ c 2).trans ((Cert.KernelIdeal.Regions.arr0 (V1 m ρ) Cert.KernelIdeal.Pay.pay0 c).trans (by
    rw [show V1 m ρ c main_arg0 = (m ((c : Thread nD τ).loc main_arg0)) from w1_arg0 m ρ c, show V1 m ρ c main_arg5 = (m ((c : Thread nD τ).loc main_arg5)) from w1_arg5 m ρ c]
    exact (Cert.ReferenceIdeal.Stages.lin_eq _ _).symm))
theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v26 : W2 m ρ c (Proc.devRef .tc main_v26) = val_main_v26 (F := Ideal) (m ((c : Thread nD τ).loc main_arg1)) :=
  (W2_of_ne m ρ c main_v26 (by decide)).trans (w1_v26 m ρ c)
theorem w2_v28 : W2 m ρ c (Proc.devRef .tc main_v28) = val_main_v28 (F := Ideal) (m ((c : Thread nD τ).loc main_arg1)) :=
  (W2_of_ne m ρ c main_v28 (by decide)).trans (w1_v28 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-! ## After the second host stretch -/

/-- The first neighbourhood aggregate. -/
theorem w3_v41 : W3 m ρ c (Proc.devRef .tc main_v41) = val_main_v41 (F := Ideal) (m ((c : Thread nD τ).loc main_arg0)) (m ((c : Thread nD τ).loc main_arg1)) (m ((c : Thread nD τ).loc main_arg5)) := by
  show StableHlo.after hostOps1 (W2 m ρ c) (Proc.devRef .tc main_v41) = _
  after_results_simp
  rw [w2_v29 m ρ c, w2_v1 m ρ c, w2_v3 m ρ c, w2_v26 m ρ c]
  rfl
theorem w3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_v1 m ρ c
theorem w3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_v3 m ρ c
theorem w3_v26 : W3 m ρ c (Proc.devRef .tc main_v26) = val_main_v26 (F := Ideal) (m ((c : Thread nD τ).loc main_arg1)) := by
  show StableHlo.after hostOps1 (W2 m ρ c) (Proc.devRef .tc main_v26) = _
  after_results_simp
  exact w2_v26 m ρ c
theorem w3_v28 : W3 m ρ c (Proc.devRef .tc main_v28) = val_main_v28 (F := Ideal) (m ((c : Thread nD τ).loc main_arg1)) := by
  show StableHlo.after hostOps1 (W2 m ρ c) (Proc.devRef .tc main_v28) = _
  after_results_simp
  exact w2_v28 m ρ c
theorem w3_v29 : W3 m ρ c (Proc.devRef .tc main_v29) = val_main_v29 (F := Ideal) (m ((c : Thread nD τ).loc main_arg0)) (m ((c : Thread nD τ).loc main_arg5)) := by
  show StableHlo.after hostOps1 (W2 m ρ c) (Proc.devRef .tc main_v29) = _
  after_results_simp
  exact w2_v29 m ρ c
theorem w3_arg6 : W3 m ρ c (Proc.devRef .tc main_arg6) = (m ((c : Thread nD τ).loc main_arg6)) := by
  show StableHlo.after hostOps1 (W2 m ρ c) (Proc.devRef .tc main_arg6) = _
  after_results_simp
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c

end Cert.KernelIdeal.Bounds

end
-- ==== Proof.BoundB.lean ====
/-
  What the kernel program's buffers hold at its fourth, fifth and sixth segment boundaries, as functions of the arguments.

  Two graph-convolution steps: each tiled region leaves the layer function of the whole arrays, which the reference
  spells with whole-array operations (a column and a row broadcast, a sum, tanh, one contraction); each host stretch
  between them is the reference's own neighbourhood aggregation on equal operands.  A buffer that a segment does not
  write — among them the arrays a region only reads — is carried across it unchanged.
-/
import proofs.«143599_j26044681683633_1_alg».proof.Proof.Gen.KernelIdeal.Frame
import proofs.«143599_j26044681683633_1_alg».proof.Proof.Gen.ReferenceIdeal.Read
import proofs.«143599_j26044681683633_1_alg».proof.Proof.KPay
import proofs.«143599_j26044681683633_1_alg».proof.Proof.RefStages
import proofs.«143599_j26044681683633_1_alg».proof.Proof.Region1
import proofs.«143599_j26044681683633_1_alg».proof.Proof.Region2
import proofs.«143599_j26044681683633_1_alg».proof.Proof.BoundA
set_option maxRecDepth 16384

noncomputable section

namespace Cert.KernelIdeal.Bounds

open Cert.KernelIdeal Cert.KernelIdeal.Gen Idealize.ShloMosaic Idealize.ShloMosaic.TcCoe Idealize.ShloMosaic.StableHlo
open Idealize.SL.Sem Cert.ReferenceIdeal.Read

variable (m : (ℓ : Loc nD τ sig) → Buf (Elt Ideal) ℓ) (ρ : Dev nD → PrngReg) (c : Dev nD)

/-! ## After the second region -/

/-- The region's output is the reference's second-layer features. -/
theorem w4_v42 : W4 m ρ c (Proc.devRef .tc main_v42) = val_main_v49 (F := Ideal) (m ((c : Thread nD τ).loc main_arg0)) (m ((c : Thread nD τ).loc main_arg1)) (m ((c : Thread nD τ).loc main_arg5)) (m ((c : Thread nD τ).loc main_arg6)) (m ((c : Thread nD τ).loc main_arg7)) :=
  (W4_arr m ρ c 5).trans ((Cert.KernelIdeal.Regions.arr1 (V3 m ρ) Cert.KernelIdeal.Pay.pay1 c).trans (by
    rw [show V3 m ρ c main_v41 = _ from w3_v41 m ρ c, show V3 m ρ c main_v29 = _ from w3_v29 m ρ c,
      show V3 m ρ c main_v28 = _ from w3_v28 m ρ c, show V3 m ρ c main_arg6 = (m ((c : Thread nD τ).loc main_arg6)) from w3_arg6 m ρ c,
      show V3 m ρ c main_arg7 = (m ((c : Thread nD τ).loc main_arg7)) from w3_arg7 m ρ c]
    exact (Cert.ReferenceIdeal.Stages.layer_eq _ _ _ _ _).symm))
theorem w4_v1 : W4 m ρ c (Proc.devRef .tc main_v1) = val_main_v1 (F := Ideal) (m ((c : Thread nD τ).loc main_arg1)) :=
  (W4_of_ne m ρ c main_v1 (by decide)).trans (w3_v1 m ρ c)
theorem w4_v3 : W4 m ρ c (Proc.devRef .tc main_v3) = val_main_v3 (F := Ideal) (m ((c : Thread nD τ).loc main_arg1)) :=
  (W4_of_ne m ρ c main_v3 (by decide)).trans (w3_v3 m ρ c)
theorem w4_v26 : W4 m ρ c (Proc.devRef .tc main_v26) = val_main_v26 (F := Ideal) (m ((c : Thread nD τ).loc main_arg1)) :=
  (W4_of_ne m ρ c main_v26 (by decide)).trans (w3_v26 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_v28 : W4 m ρ c (Proc.devRef .tc main_v28) = val_main_v28 (F := Ideal) (m ((c : Thread nD τ).loc main_arg1)) :=
  ((W4_arr m ρ c 2).trans (((dat1 (V3 m ρ) c).arrAt_in 2 rfl _).trans (A_eq1 (V3 m ρ) c 2))).trans (w3_v28 m ρ c)

/-! ## After the third host stretch -/

/-- The second neighbourhood aggregate. -/
theorem w5_v54 : W5 m ρ c (Proc.devRef .tc main_v54) = val_main_v61 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  show StableHlo.after hostOps2 (W4 m ρ c) (Proc.devRef .tc main_v54) = _
  after_results_simp
  rw [w4_v42 m ρ c, w4_v1 m ρ c, w4_v3 m ρ c, w4_v26 m ρ c]
  rfl
theorem w5_v1 : W5 m ρ c (Proc.devRef .tc main_v1) = val_main_v1 (F := Ideal) (m ((c : Thread nD τ).loc main_arg1)) := by
  show StableHlo.after hostOps2 (W4 m ρ c) (Proc.devRef .tc main_v1) = _
  after_results_simp
  exact w4_v1 m ρ c
theorem w5_v3 : W5 m ρ c (Proc.devRef .tc main_v3) = val_main_v3 (F := Ideal) (m ((c : Thread nD τ).loc main_arg1)) := by
  show StableHlo.after hostOps2 (W4 m ρ c) (Proc.devRef .tc main_v3) = _
  after_results_simp
  exact w4_v3 m ρ c
theorem w5_v26 : W5 m ρ c (Proc.devRef .tc main_v26) = val_main_v26 (F := Ideal) (m ((c : Thread nD τ).loc main_arg1)) := by
  show StableHlo.after hostOps2 (W4 m ρ c) (Proc.devRef .tc main_v26) = _
  after_results_simp
  exact w4_v26 m ρ c
theorem w5_v28 : W5 m ρ c (Proc.devRef .tc main_v28) = val_main_v28 (F := Ideal) (m ((c : Thread nD τ).loc main_arg1)) := by
  show StableHlo.after hostOps2 (W4 m ρ c) (Proc.devRef .tc main_v28) = _
  after_results_simp
  exact w4_v28 m ρ c
theorem w5_v42 : W5 m ρ c (Proc.devRef .tc main_v42) = val_main_v49 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  show StableHlo.after hostOps2 (W4 m ρ c) (Proc.devRef .tc main_v42) = _
  after_results_simp
  exact w4_v42 m ρ c
theorem w5_arg8 : W5 m ρ c (Proc.devRef .tc main_arg8) = (m ((c : Thread nD τ).loc main_arg8)) := by
  show StableHlo.after hostOps2 (W4 m ρ c) (Proc.devRef .tc main_arg8) = _
  after_results_simp
  exact w4_arg8 m ρ c
theorem w5_arg9 : W5 m ρ c (Proc.devRef .tc main_arg9) = (m ((c : Thread nD τ).loc main_arg9)) := by
  show StableHlo.after hostOps2 (W4 m ρ c) (Proc.devRef .tc main_arg9) = _
  after_results_simp
  exact w4_arg9 m ρ c

/-! ## After the third region -/

/-- The region's output is the reference's third-layer features. -/
theorem w6_v55 : W6 m ρ c (Proc.devRef .tc main_v55) = val_main_v69 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 5).trans ((Cert.KernelIdeal.Regions.arr2 (V5 m ρ) Cert.KernelIdeal.Pay.pay2 c).trans (by
    rw [show V5 m ρ c main_v54 = _ from w5_v54 m ρ c, show V5 m ρ c main_v42 = _ from w5_v42 m ρ c,
      show V5 m ρ c main_v28 = _ from w5_v28 m ρ c, show V5 m ρ c main_arg8 = (m ((c : Thread nD τ).loc main_arg8)) from w5_arg8 m ρ c,
      show V5 m ρ c main_arg9 = (m ((c : Thread nD τ).loc main_arg9)) from w5_arg9 m ρ c]
    exact (Cert.ReferenceIdeal.Stages.layer_eq _ _ _ _ _).symm))
theorem w6_v1 : W6 m ρ c (Proc.devRef .tc main_v1) = val_main_v1 (F := Ideal) (m ((c : Thread nD τ).loc main_arg1)) :=
  (W6_of_ne m ρ c main_v1 (by decide)).trans (w5_v1 m ρ c)
theorem w6_v3 : W6 m ρ c (Proc.devRef .tc main_v3) = val_main_v3 (F := Ideal) (m ((c : Thread nD τ).loc main_arg1)) :=
  (W6_of_ne m ρ c main_v3 (by decide)).trans (w5_v3 m ρ c)
theorem w6_v26 : W6 m ρ c (Proc.devRef .tc main_v26) = val_main_v26 (F := Ideal) (m ((c : Thread nD τ).loc main_arg1)) :=
  (W6_of_ne m ρ c main_v26 (by decide)).trans (w5_v26 m ρ c)
theorem w6_v28 : W6 m ρ c (Proc.devRef .tc main_v28) = val_main_v28 (F := Ideal) (m ((c : Thread nD τ).loc main_arg1)) :=
  ((W6_arr m ρ c 2).trans (((dat2 (V5 m ρ) c).arrAt_in 2 rfl _).trans (A_eq2 (V5 m ρ) c 2))).trans (w5_v28 m ρ c)

end Cert.KernelIdeal.Bounds

end
-- ==== Proof.BoundC.lean ====
/-
  What the kernel program's buffers hold at its last three segment boundaries, as functions of the arguments.

  The third neighbourhood aggregate (the reference's own operations on equal operands); the last tiled region, which
  leaves the head function of the whole arrays — the reference spells it with three contractions, bias broadcasts and
  tanh —; and the closing host stretch: the mean over each graph's nodes and the pairwise sigmoid, again the
  reference's own operations.  The weight and bias arguments the last region reads, and the three integer arguments
  of the closing stretch, are never written by any segment: they still hold their launch contents where they are read.
-/
import proofs.«143599_j26044681683633_1_alg».proof.Proof.Gen.KernelIdeal.Frame
import proofs.«143599_j26044681683633_1_alg».proof.Proof.Gen.ReferenceIdeal.Read
import proofs.«143599_j26044681683633_1_alg».proof.Proof.KPay
import proofs.«143599_j26044681683633_1_alg».proof.Proof.RefStages
import proofs.«143599_j26044681683633_1_alg».proof.Proof.Region3
import proofs.«143599_j26044681683633_1_alg».proof.Proof.BoundB
set_option maxRecDepth 16384

noncomputable section

namespace Cert.KernelIdeal.Bounds

open Cert.KernelIdeal Cert.KernelIdeal.Gen Idealize.ShloMosaic Idealize.ShloMosaic.TcCoe Idealize.ShloMosaic.StableHlo
open Idealize.SL.Sem Cert.ReferenceIdeal.Read

variable (m : (ℓ : Loc nD τ sig) → Buf (Elt Ideal) ℓ) (ρ : Dev nD → PrngReg) (c : Dev nD)

/-! ## After the fourth host stretch -/

/-- The third neighbourhood aggregate. -/
theorem w7_v67 : W7 m ρ c (Proc.devRef .tc main_v67) = val_main_v81 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v67) = _
  after_results_simp
  rw [w6_v55 m ρ c, w6_v1 m ρ c, w6_v3 m ρ c, w6_v26 m ρ c]
  rfl
theorem w7_v28 : W7 m ρ c (Proc.devRef .tc main_v28) = val_main_v28 (F := Ideal) (m ((c : Thread nD τ).loc main_arg1)) := by
  show StableHlo.after hostOps3 (W6 m ρ c) (Proc.devRef .tc main_v28) = _
  after_results_simp
  exact w6_v28 m ρ c
theorem w7_v55 : W7 m ρ c (Proc.devRef .tc main_v55) = val_main_v69 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v55) = _
  after_results_simp
  exact w6_v55 m ρ c

/-! ## The arguments read late: unchanged from there to the end, and the end holds their launch contents -/

theorem w8_arg2 : W8 m ρ c (Proc.devRef .tc main_arg2) = (m ((c : Thread nD τ).loc main_arg2)) :=
  (show W9 m ρ c (Proc.devRef .tc main_arg2) = W8 m ρ c (Proc.devRef .tc main_arg2) by
    show StableHlo.after hostOps4 (W8 m ρ c) (Proc.devRef .tc main_arg2) = _
    after_results_simp).symm.trans (W9_main_arg2 m ρ c)
theorem w8_arg3 : W8 m ρ c (Proc.devRef .tc main_arg3) = (m ((c : Thread nD τ).loc main_arg3)) :=
  (show W9 m ρ c (Proc.devRef .tc main_arg3) = W8 m ρ c (Proc.devRef .tc main_arg3) by
    show StableHlo.after hostOps4 (W8 m ρ c) (Proc.devRef .tc main_arg3) = _
    after_results_simp).symm.trans (W9_main_arg3 m ρ c)
theorem w8_arg4 : W8 m ρ c (Proc.devRef .tc main_arg4) = (m ((c : Thread nD τ).loc main_arg4)) :=
  (show W9 m ρ c (Proc.devRef .tc main_arg4) = W8 m ρ c (Proc.devRef .tc main_arg4) by
    show StableHlo.after hostOps4 (W8 m ρ c) (Proc.devRef .tc main_arg4) = _
    after_results_simp).symm.trans (W9_main_arg4 m ρ c)
theorem w8_arg10 : W8 m ρ c (Proc.devRef .tc main_arg10) = (m ((c : Thread nD τ).loc main_arg10)) :=
  (show W9 m ρ c (Proc.devRef .tc main_arg10) = W8 m ρ c (Proc.devRef .tc main_arg10) by
    show StableHlo.after hostOps4 (W8 m ρ c) (Proc.devRef .tc main_arg10) = _
    after_results_simp).symm.trans (W9_main_arg10 m ρ c)
theorem w8_arg11 : W8 m ρ c (Proc.devRef .tc main_arg11) = (m ((c : Thread nD τ).loc main_arg11)) :=
  (show W9 m ρ c (Proc.devRef .tc main_arg11) = W8 m ρ c (Proc.devRef .tc main_arg11) by
    show StableHlo.after hostOps4 (W8 m ρ c) (Proc.devRef .tc main_arg11) = _
    after_results_simp).symm.trans (W9_main_arg11 m ρ c)
theorem w8_arg12 : W8 m ρ c (Proc.devRef .tc main_arg12) = (m ((c : Thread nD τ).loc main_arg12)) :=
  (show W9 m ρ c (Proc.devRef .tc main_arg12) = W8 m ρ c (Proc.devRef .tc main_arg12) by
    show StableHlo.after hostOps4 (W8 m ρ c) (Proc.devRef .tc main_arg12) = _
    after_results_simp).symm.trans (W9_main_arg12 m ρ c)
theorem w8_arg13 : W8 m ρ c (Proc.devRef .tc main_arg13) = (m ((c : Thread nD τ).loc main_arg13)) :=
  (show W9 m ρ c (Proc.devRef .tc main_arg13) = W8 m ρ c (Proc.devRef .tc main_arg13) by
    show StableHlo.after hostOps4 (W8 m ρ c) (Proc.devRef .tc main_arg13) = _
    after_results_simp).symm.trans (W9_main_arg13 m ρ c)
theorem w8_arg14 : W8 m ρ c (Proc.devRef .tc main_arg14) = (m ((c : Thread nD τ).loc main_arg14)) :=
  (show W9 m ρ c (Proc.devRef .tc main_arg14) = W8 m ρ c (Proc.devRef .tc main_arg14) by
    show StableHlo.after hostOps4 (W8 m ρ c) (Proc.devRef .tc main_arg14) = _
    after_results_simp).symm.trans (W9_main_arg14 m ρ c)
theorem w8_arg15 : W8 m ρ c (Proc.devRef .tc main_arg15) = (m ((c : Thread nD τ).loc main_arg15)) :=
  (show W9 m ρ c (Proc.devRef .tc main_arg15) = W8 m ρ c (Proc.devRef .tc main_arg15) by
    show StableHlo.after hostOps4 (W8 m ρ c) (Proc.devRef .tc main_arg15) = _
    after_results_simp).symm.trans (W9_main_arg15 m ρ c)
theorem w8_arg16 : W8 m ρ c (Proc.devRef .tc main_arg16) = (m ((c : Thread nD τ).loc main_arg16)) :=
  (show W9 m ρ c (Proc.devRef .tc main_arg16) = W8 m ρ c (Proc.devRef .tc main_arg16) by
    show StableHlo.after hostOps4 (W8 m ρ c) (Proc.devRef .tc main_arg16) = _
    after_results_simp).symm.trans (W9_main_arg16 m ρ c)
theorem w7_arg10 : W7 m ρ c (Proc.devRef .tc main_arg10) = (m ((c : Thread nD τ).loc main_arg10)) :=
  ((W8_arr m ρ c 3).trans (((dat3 (V7 m ρ) c).arrAt_in 3 rfl _).trans (A_eq3 (V7 m ρ) c 3))).symm.trans (w8_arg10 m ρ c)
theorem w7_arg11 : W7 m ρ c (Proc.devRef .tc main_arg11) = (m ((c : Thread nD τ).loc main_arg11)) :=
  ((W8_arr m ρ c 4).trans (((dat3 (V7 m ρ) c).arrAt_in 4 rfl _).trans (A_eq3 (V7 m ρ) c 4))).symm.trans (w8_arg11 m ρ c)
theorem w7_arg12 : W7 m ρ c (Proc.devRef .tc main_arg12) = (m ((c : Thread nD τ).loc main_arg12)) :=
  ((W8_arr m ρ c 5).trans (((dat3 (V7 m ρ) c).arrAt_in 5 rfl _).trans (A_eq3 (V7 m ρ) c 5))).symm.trans (w8_arg12 m ρ c)
theorem w7_arg13 : W7 m ρ c (Proc.devRef .tc main_arg13) = (m ((c : Thread nD τ).loc main_arg13)) :=
  ((W8_arr m ρ c 6).trans (((dat3 (V7 m ρ) c).arrAt_in 6 rfl _).trans (A_eq3 (V7 m ρ) c 6))).symm.trans (w8_arg13 m ρ c)
theorem w7_arg14 : W7 m ρ c (Proc.devRef .tc main_arg14) = (m ((c : Thread nD τ).loc main_arg14)) :=
  ((W8_arr m ρ c 7).trans (((dat3 (V7 m ρ) c).arrAt_in 7 rfl _).trans (A_eq3 (V7 m ρ) c 7))).symm.trans (w8_arg14 m ρ c)
theorem w7_arg15 : W7 m ρ c (Proc.devRef .tc main_arg15) = (m ((c : Thread nD τ).loc main_arg15)) :=
  ((W8_arr m ρ c 8).trans (((dat3 (V7 m ρ) c).arrAt_in 8 rfl _).trans (A_eq3 (V7 m ρ) c 8))).symm.trans (w8_arg15 m ρ c)
theorem w7_arg16 : W7 m ρ c (Proc.devRef .tc main_arg16) = (m ((c : Thread nD τ).loc main_arg16)) :=
  ((W8_arr m ρ c 9).trans (((dat3 (V7 m ρ) c).arrAt_in 9 rfl _).trans (A_eq3 (V7 m ρ) c 9))).symm.trans (w8_arg16 m ρ c)

/-! ## After the fourth region -/

/-- The region's output is the reference's per-node score. -/
theorem w8_v68 : W8 m ρ c (Proc.devRef .tc main_v68) = val_main_v102 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W8_arr m ρ c 10).trans ((Cert.KernelIdeal.Regions.arr3 (V7 m ρ) Cert.KernelIdeal.Pay.pay3 c).trans (by
    rw [show V7 m ρ c main_v67 = _ from w7_v67 m ρ c, show V7 m ρ c main_v55 = _ from w7_v55 m ρ c,
      show V7 m ρ c main_v28 = _ from w7_v28 m ρ c, show V7 m ρ c main_arg10 = (m ((c : Thread nD τ).loc main_arg10)) from w7_arg10 m ρ c,
      show V7 m ρ c main_arg11 = (m ((c : Thread nD τ).loc main_arg11)) from w7_arg11 m ρ c, show V7 m ρ c main_arg12 = (m ((c : Thread nD τ).loc main_arg12)) from w7_arg12 m ρ c,
      show V7 m ρ c main_arg13 = (m ((c : Thread nD τ).loc main_arg13)) from w7_arg13 m ρ c, show V7 m ρ c main_arg14 = (m ((c : Thread nD τ).loc main_arg14)) from w7_arg14 m ρ c,
      show V7 m ρ c main_arg15 = (m ((c : Thread nD τ).loc main_arg15)) from w7_arg15 m ρ c, show V7 m ρ c main_arg16 = (m ((c : Thread nD τ).loc main_arg16)) from w7_arg16 m ρ c]
    exact (Cert.ReferenceIdeal.Stages.head_eq _ _ _ _ _ _ _ _ _ _).symm))

/-! ## After the last host stretch: the two results -/

/-- The pairwise sigmoid of pooled scores. -/
theorem w9_out0 : W9 m ρ c (Proc.devRef .tc main_v101) = val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4 (W8 m ρ c) (Proc.devRef .tc main_v101) = _
  after_results_simp
  rw [w8_v68 m ρ c, w8_arg2 m ρ c, w8_arg3 m ρ c, w8_arg4 m ρ c]
  rfl

/-- The pooled scores. -/
theorem w9_out1 : W9 m ρ c (Proc.devRef .tc main_v79) = val_main_v113 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4 (W8 m ρ c) (Proc.devRef .tc main_v79) = _
  after_results_simp
  rw [w8_v68 m ρ c, w8_arg2 m ρ c]
  rfl

end Cert.KernelIdeal.Bounds

end
-- ==== Proof.KResult.lean ====
/-
  The idealized kernel program's run, its results named.

  Every weakly fair execution terminates without a fault; the first result (the pairwise sigmoid) and the second (the
  pooled scores) end at the same functions of the arguments' launch contents that the reference's operations compose
  to, one stage at a time; and the arguments end unchanged.
-/
import proofs.«143599_j26044681683633_1_alg».proof.Proof.KRun
import proofs.«143599_j26044681683633_1_alg».proof.Proof.BoundC

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read Cert.KernelIdeal.Bounds

/-- The run, with each result at its function of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v101) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v79) = val_main_v113 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c main_v101 (by decide)).trans (w9_out0 m ρ c),
     (h c main_v79 (by decide)).trans (w9_out1 m ρ c),
     (h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c),
     (h c main_arg9 (by decide)).trans (W9_main_arg9 m ρ c),
     (h c main_arg10 (by decide)).trans (W9_main_arg10 m ρ c),
     (h c main_arg11 (by decide)).trans (W9_main_arg11 m ρ c),
     (h c main_arg12 (by decide)).trans (W9_main_arg12 m ρ c),
     (h c main_arg13 (by decide)).trans (W9_main_arg13 m ρ c),
     (h c main_arg14 (by decide)).trans (W9_main_arg14 m ρ c),
     (h c main_arg15 (by decide)).trans (W9_main_arg15 m ρ c),
     (h c main_arg16 (by decide)).trans (W9_main_arg16 m ρ c)⟩)
    (Cert.KernelIdeal.Named.run_named m ρ)

end Cert.KernelIdeal.Result

end
-- ==== Proof.lean ====
/-
  The certificate: a three-layer graph convolution network with a three-layer head, mean pooling over graphs and a
  pairwise sigmoid, computed by a program of four tiled regions among host operations, against the same network
  written with whole-array operations.

  The two programs apply the same operations in the same order.  They differ only in that the kernel program
  computes its four dense stages (x·W_in; twice tanh(agg + h·selfnorm + b)·W; and that activation through the head)
  on blocks of 4000 rows with operands narrowed to a 16-bit format, where the reference applies one contraction to
  the whole arrays.  Over the extended reals narrowing is the identity, and each dense stage is row-local — row p of
  its result reads row p of its row-indexed operands and the whole of the weights —, so the blocks written are the
  blocks of the whole-array result and they cover it.  Every other operation (degrees, rsqrt, gathers, scatter-adds,
  pooling, sigmoid) is literally the same on both sides and is never opened: the proof only carries equal operands
  through them.  No entry needs to be finite: the precondition is not used.

  The frames of the two kernel programs are the generated ones; the reference's frame is its generated run with the
  results dropped; the ideal pass rewrote nothing, so the preservation claim is trivial.
-/
import proofs.«143599_j26044681683633_1_alg».proof.Defs
import proofs.«143599_j26044681683633_1_alg».proof.Proof.Gen.Kernel
import proofs.«143599_j26044681683633_1_alg».proof.Proof.Gen.Kernel.Frame
import proofs.«143599_j26044681683633_1_alg».proof.Proof.Gen.KernelIdeal
import proofs.«143599_j26044681683633_1_alg».proof.Proof.Gen.KernelIdeal.Frame
import proofs.«143599_j26044681683633_1_alg».proof.Proof.Gen.ReferenceIdeal
import proofs.«143599_j26044681683633_1_alg».proof.Proof.Gen.ReferenceIdeal.Run
import proofs.«143599_j26044681683633_1_alg».proof.Proof.Gen.ReferenceIdeal.Read
import proofs.«143599_j26044681683633_1_alg».proof.Proof.Gen.Pre_finite_inputs
import proofs.«143599_j26044681683633_1_alg».proof.Proof.KResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with each result at the same function of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16⟩ := hagree c
  refine ⟨(h c).1.trans ?_, (h c).2.1.trans ?_, (h c).2.2⟩
  · rw [Cert.ReferenceIdeal.Read.val_main_v135_eq, a0, a1, a2, a3, a4, a5, a6, a7, a8, a9, a10, a11, a12, a13, a14, a15, a16]
  · rw [Cert.ReferenceIdeal.Read.val_main_v113_eq, a0, a1, a2, a5, a6, a7, a8, a9, a10, a11, a12, a13, a14, a15, a16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
